-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x8 : Shape := ⟨2, ![1000000, 8]⟩
abbrev S64x16 : Shape := ⟨2, ![64, 16]⟩
abbrev S2x1000000 : Shape := ⟨2, ![2, 1000000]⟩
abbrev S1000000 : Shape := ⟨1, ![1000000]⟩
abbrev S152x1 : Shape := ⟨2, ![152, 1]⟩
abbrev S1 : Shape := ⟨1, ![1]⟩
abbrev S1x1 : Shape := ⟨2, ![1, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x8 : S_.BroadcastsInDim S1000000x8 (![] : Fin 0 → Fin S1000000x8.rank)
  reducesTo_S1000000x8_S_d0_1 : S1000000x8.ReducesTo [0, 1] S_
  bcast_S_S64x16 : S_.BroadcastsInDim S64x16 (![] : Fin 0 → Fin S64x16.rank)
  reducesTo_S64x16_S_d0_1 : S64x16.ReducesTo [0, 1] S_
  bcast_S_S152x1 : S_.BroadcastsInDim S152x1 (![] : Fin 0 → Fin S152x1.rank)
  reducesTo_S152x1_S_d0_1 : S152x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S152x1 .f32) (main_arg7 : FVec F S1 .f32) (main_arg8 : FVec F S1x1 .f32) (main_arg9 : FVec F S1 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S152x1 .f32 := Host.absf main_arg6
  let main_cst_6 : FVec F S_ .f32 := constant S_ .f32 0x7F800000#32
  let main_v20 : FVec F S152x1 .f32 := broadcastInDim S152x1 ![] bcast_S_S152x1 main_cst_6
  let main_v21 : IVec S152x1 1 := cmpf .olt main_v19 main_v20
  let main_c_7 : IVec S_ 1 := constantI S_ 1 1#1
  let main_v22 : IVec S_ 1 := (fun x v => Host.reduce IntOp.andi x v reducesTo_S152x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x1 .f32 := Host.absf main_arg8
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : FVec F S100000x64 .f32) (main_arg2 : FVec F S1000000x8 .f32) (main_arg3 : FVec F S64x16 .f32) (main_arg4 : IVec S2x1000000 32) (main_arg5 : IVec S1000000 32) (main_arg6 : FVec F S152x1 .f32) (main_arg7 : FVec F S1 .f32) (main_arg8 : FVec F S1x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1000000x8 .f32 := Host.absf main_arg2
  let main_cst_2 : FVec F S_ .f32 := constant S_ .f32 0x7F800000#32
  let main_v10 : FVec F S1000000x8 .f32 := broadcastInDim S1000000x8 ![] bcast_S_S1000000x8 main_cst_2
  let main_v11 : IVec S1000000x8 1 := cmpf .olt main_v9 main_v10
  let main_c_3 : IVec S_ 1 := constantI S_ 1 1#1
  let main_v12 : IVec S_ 1 := (fun x v => Host.reduce IntOp.andi x v reducesTo_S1000000x8_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_arg7 main_arg8 main_arg9 main_v13 main_v16
-- ==== Kernel.lean ====
abbrev S100000x64 : Shape := ⟨2, ![100000, 64]⟩
abbrev S1000000x8 : Shape := ⟨2, ![1000000, 8]⟩
abbrev S64x16 : Shape := ⟨2, ![64, 16]⟩
abbrev S2x1000000 : Shape := ⟨2, ![2, 1000000]⟩
abbrev S1000000 : Shape := ⟨1, ![1000000]⟩
abbrev S152x1 : Shape := ⟨2, ![152, 1]⟩
abbrev S1 : Shape := ⟨1, ![1]⟩
abbrev S1x1 : Shape := ⟨2, ![1, 1]⟩
abbrev S64x1 : Shape := ⟨2, ![64, 1]⟩
abbrev S8x1 : Shape := ⟨2, ![8, 1]⟩
abbrev S16x1 : Shape := ⟨2, ![16, 1]⟩
abbrev S100000x1 : Shape := ⟨2, ![100000, 1]⟩
abbrev S10000x64 : Shape := ⟨2, ![10000, 64]⟩
abbrev S10000x1 : Shape := ⟨2, ![10000, 1]⟩
abbrev S1x1000000 : Shape := ⟨2, ![1, 1000000]⟩
abbrev S_ : Shape := ⟨0, ![]⟩
abbrev S1000000x1 : Shape := ⟨2, ![1000000, 1]⟩
abbrev S1000000x3 : Shape := ⟨2, ![1000000, 3]⟩
abbrev S10000x3 : Shape := ⟨2, ![10000, 3]⟩
abbrev S10000x8 : Shape := ⟨2, ![10000, 8]⟩

abbrev nBuf : Space → Nat
  | .hbm => 52
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000x8, .f32⟩
  | .hbm, ⟨3, _⟩ => ⟨S64x16, .f32⟩
  | .hbm, ⟨4, _⟩ => ⟨S2x1000000, .i32⟩
  | .hbm, ⟨5, _⟩ => ⟨S1000000, .i32⟩
  | .hbm, ⟨6, _⟩ => ⟨S152x1, .f32⟩
  | .hbm, ⟨7, _⟩ => ⟨S1, .f32⟩
  | .hbm, ⟨8, _⟩ => ⟨S1x1, .f32⟩
  | .hbm, ⟨9, _⟩ => ⟨S1, .f32⟩
  | .hbm, ⟨10, _⟩ => ⟨S64x1, .f32⟩
  | .hbm, ⟨11, _⟩ => ⟨S64x1, .f32⟩
  | .hbm, ⟨12, _⟩ => ⟨S8x1, .f32⟩
  | .hbm, ⟨13, _⟩ => ⟨S16x1, .f32⟩
  | .hbm, ⟨14, _⟩ => ⟨S100000x1, .f32⟩
  | .hbm, ⟨15, _⟩ => ⟨S100000x1, .f32⟩
  | .hbm, ⟨16, _⟩ => ⟨S64x1, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x1, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x1, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x1, .f32⟩
  | .hbm, ⟨48, _⟩ => ⟨S1000000x3, .f32⟩
  | .hbm, ⟨49, _⟩ => ⟨S1x1, .f32⟩
  | .hbm, ⟨50, _⟩ => ⟨S1x1, .f32⟩
  | .hbm, ⟨51, _⟩ => ⟨S1000000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x1, .f32⟩
  | .local _ .vmem, ⟨5, _⟩ => ⟨S64x1, .f32⟩
  | .local _ .vmem, ⟨6, _⟩ => ⟨S10000x1, .f32⟩
  | .local _ .vmem, ⟨7, _⟩ => ⟨S10000x1, .f32⟩
  | .local _ .vmem, ⟨8, _⟩ => ⟨S10000x1, .f32⟩
  | .local _ .vmem, ⟨9, _⟩ => ⟨S10000x1, .f32⟩
  | .local _ .vmem, ⟨10, _⟩ => ⟨S10000x3, .f32⟩
  | .local _ .vmem, ⟨11, _⟩ => ⟨S10000x3, .f32⟩
  | .local _ .vmem, ⟨12, _⟩ => ⟨S10000x8, .f32⟩
  | .local _ .vmem, ⟨13, _⟩ => ⟨S10000x8, .f32⟩
  | .local _ .vmem, ⟨14, _⟩ => ⟨S8x1, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S152x1_S64x1_0_0 : S152x1.Slices ![0, 0] S64x1
  slices_S152x1_S64x1_64_0 : S152x1.Slices ![64, 0] S64x1
  slices_S152x1_S8x1_128_0 : S152x1.Slices ![128, 0] S8x1
  slices_S152x1_S16x1_136_0 : S152x1.Slices ![136, 0] S16x1
  inb_S10000x64_S10000x64_0_0 : ∀ a, (![0, 0] : Fin 2 → Nat) a + S10000x64.size a ≤ S10000x64.size a
  h_S10000x64 : 0 < S10000x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x1_S10000x1_0_0 : ∀ a, (![0, 0] : Fin 2 → Nat) a + S10000x1.size a ≤ S10000x1.size a
  h_S10000x1 : 0 < S10000x1.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x1_S1000000x3_d1 : Shape.Concatenates [S1000000x1, S1000000x1, S1000000x1] S1000000x3 1
  shapeCasts_S1_S1x1 : S1.ShapeCasts S1x1
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  slices_S10000x3_o0_0_S10000x1 : S10000x3.Slices ![0, 0] S10000x1
  slices_S10000x3_o0_1_S10000x1 : S10000x3.Slices ![0, 1] S10000x1
  slices_S10000x3_o0_2_S10000x1 : S10000x3.Slices ![0, 2] S10000x1
  inb_S10000x8_S10000x8_0_0 : ∀ a, (![0, 0] : Fin 2 → Nat) a + S10000x8.size a ≤ S10000x8.size a
  h_S10000x8 : 0 < S10000x8.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  dot_S10000x64_S64x1_S10000x1_1_0_0_1_n_n_wf : DotDims.WF S10000x64 S64x1 S10000x1 [1] [0] [0] [1] [] []
  dot_S64x16_S16x1_S64x1_1_0_0_1_n_n_wf : DotDims.WF S64x16 S16x1 S64x1 [1] [0] [0] [1] [] []
  gather_S100000x1_S1000000x1_S1000000x1_1_0_n_n_0_1_11_wf : GatherDims.WF S100000x1 S1000000x1 S1000000x1 [1] [0] [] [0] [] 1 ![1, 1]
  gather_S64x1_S1000000x1_S1000000x1_1_0_n_n_0_1_11_wf : GatherDims.WF S64x1 S1000000x1 S1000000x1 [1] [0] [] [0] [] 1 ![1, 1]
  dot_S10000x8_S8x1_S10000x1_1_0_0_1_n_n_wf : DotDims.WF S10000x8 S8x1 S10000x1 [1] [0] [0] [1] [] []
  dot_S10000x1_S1x1_S10000x1_1_0_0_1_n_n_wf : DotDims.WF S10000x1 S1x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S100000x1.size a
  hwx0_4 : ∀ i : grid0.Coords, EltTy.bits .f32 = 32 ∨ (Rect.block (s := S100000x1) S10000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x1.size a ≤ S100000x1.size a
  hwx0_5 : ∀ i : grid0.Coords, EltTy.bits .f32 = 32 ∨ (Rect.block (s := S100000x1) S10000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x3.size a ≤ S1000000x3.size a
  hwx1_0 : ∀ i : grid1.Coords, EltTy.bits .f32 = 32 ∨ (Rect.block (s := S1000000x3) S10000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x8.size a ≤ S1000000x8.size a
  hwx1_1 : ∀ i : grid1.Coords, EltTy.bits .f32 = 32 ∨ (Rect.block (s := S1000000x8) S10000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S8x1.size a
  hwx1_2 : ∀ i : grid1.Coords, EltTy.bits .f32 = 32 ∨ (Rect.block (s := S8x1) S8x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x1.size a ≤ S1000000x1.size a
  hwx1_6 : ∀ i : grid1.Coords, EltTy.bits .f32 = 32 ∨ (Rect.block (s := S1000000x1) S10000x1.size (cc1_transform_6 i) (hinb1_6 i)).WholeWords (EltTy.packing .f32)

variable [Facts₀]

def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def gather_S64x1_S1000000x1_S1000000x1_1_0_n_n_0_1_11 : GatherDims S64x1 S1000000x1 S1000000x1 where
  offsetDims := [1]
  collapsedSliceDims := [0]
  operandBatchingDims := []
  startIndicesBatchingDims := []
  startIndexMap := [0]
  indexVectorDim := 1
  sliceSizes := ![1, 1]
  wf := gather_S64x1_S1000000x1_S1000000x1_1_0_n_n_0_1_11_wf
def dot_S10000x8_S8x1_S10000x1_1_0_0_1_n_n : DotDims S10000x8 S8x1 S10000x1 where
  lhsContracting := [1]
  rhsContracting := [0]
  lhsNonContracting := [0]
  rhsNonContracting := [1]
  lhsBatch := []
  rhsBatch := []
  wf := dot_S10000x8_S8x1_S10000x1_1_0_0_1_n_n_wf
def dot_S10000x1_S1x1_S10000x1_1_0_0_1_n_n : DotDims S10000x1 S1x1 S10000x1 where
  lhsContracting := [1]
  rhsContracting := [0]
  lhsNonContracting := [0]
  rhsNonContracting := [1]
  lhsBatch := []
  rhsBatch := []
  wf := dot_S10000x1_S1x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S10000x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S10000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S10000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S10000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S10000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000x8 : Shape := ⟨2, ![1000000, 8]⟩
abbrev S64x16 : Shape := ⟨2, ![64, 16]⟩
abbrev S2x1000000 : Shape := ⟨2, ![2, 1000000]⟩
abbrev S1000000 : Shape := ⟨1, ![1000000]⟩
abbrev S152x1 : Shape := ⟨2, ![152, 1]⟩
abbrev S1 : Shape := ⟨1, ![1]⟩
abbrev S1x1 : Shape := ⟨2, ![1, 1]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1000000x16 : Shape := ⟨2, ![1000000, 16]⟩
abbrev S1000000x152 : Shape := ⟨2, ![1000000, 152]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000x8, .f32⟩
  | .hbm, ⟨3, _⟩ => ⟨S64x16, .f32⟩
  | .hbm, ⟨4, _⟩ => ⟨S2x1000000, .i32⟩
  | .hbm, ⟨5, _⟩ => ⟨S1000000, .i32⟩
  | .hbm, ⟨6, _⟩ => ⟨S152x1, .f32⟩
  | .hbm, ⟨7, _⟩ => ⟨S1, .f32⟩
  | .hbm, ⟨8, _⟩ => ⟨S1x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x16, .f32⟩
  | .hbm, ⟨41, _⟩ => ⟨S1000000x152, .f32⟩
  | .hbm, ⟨42, _⟩ => ⟨S1000000x1, .f32⟩
  | .hbm, ⟨43, _⟩ => ⟨S1x1, .f32⟩
  | .hbm, ⟨44, _⟩ => ⟨S1000000x1, .f32⟩
  | .hbm, ⟨45, _⟩ => ⟨S1000000x1, .f32⟩
  | .hbm, ⟨46, _⟩ => ⟨S_, .f32⟩
  | .hbm, ⟨47, _⟩ => ⟨S1000000x1, .f32⟩
  | .hbm, ⟨48, _⟩ => ⟨S1000000x1, .i1⟩
  | .hbm, ⟨49, _⟩ => ⟨S_, .f32⟩
  | .hbm, ⟨50, _⟩ => ⟨S1000000x1, .f32⟩
  | .hbm, ⟨51, _⟩ => ⟨S1000000x1, .f32⟩
  | .hbm, ⟨52, _⟩ => ⟨S1000000x1, .f32⟩
  | .hbm, ⟨53, _⟩ => ⟨S1000000x1, .f32⟩
  | .hbm, ⟨54, _⟩ => ⟨S1x1, .f32⟩
  | .hbm, ⟨55, _⟩ => ⟨S1000000x1, .f32⟩
  | .hbm, ⟨56, _⟩ => ⟨S1000000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x8_S1000000x16_S1000000x152_d1 : Shape.Concatenates [S1000000x64, S1000000x64, S1000000x8, S1000000x16] S1000000x152 1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  gather_S100000x64_S1000000x1_S1000000x64_1_0_n_n_0_1_164_wf : GatherDims.WF S100000x64 S1000000x1 S1000000x64 [1] [0] [] [0] [] 1 ![1, 64]
  gather_S64x16_S1000000x1_S1000000x16_1_0_n_n_0_1_116_wf : GatherDims.WF S64x16 S1000000x1 S1000000x16 [1] [0] [] [0] [] 1 ![1, 16]
  dot_S1000000x152_S152x1_S1000000x1_1_0_0_1_n_n_wf : DotDims.WF S1000000x152 S152x1 S1000000x1 [1] [0] [0] [1] [] []
  dot_S1000000x1_S1x1_S1000000x1_1_0_0_1_n_n_wf : DotDims.WF S1000000x1 S1x1 S1000000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S64x16_S1000000x1_S1000000x16_1_0_n_n_0_1_116 : GatherDims S64x16 S1000000x1 S1000000x16 where
  offsetDims := [1]
  collapsedSliceDims := [0]
  operandBatchingDims := []
  startIndicesBatchingDims := []
  startIndexMap := [0]
  indexVectorDim := 1
  sliceSizes := ![1, 16]
  wf := gather_S64x16_S1000000x1_S1000000x16_1_0_n_n_0_1_116_wf
def dot_S1000000x152_S152x1_S1000000x1_1_0_0_1_n_n : DotDims S1000000x152 S152x1 S1000000x1 where
  lhsContracting := [1]
  rhsContracting := [0]
  lhsNonContracting := [0]
  rhsNonContracting := [1]
  lhsBatch := []
  rhsBatch := []
  wf := dot_S1000000x152_S152x1_S1000000x1_1_0_0_1_n_n_wf
def dot_S1000000x1_S1x1_S1000000x1_1_0_0_1_n_n : DotDims S1000000x1 S1x1 S1000000x1 where
  lhsContracting := [1]
  rhsContracting := [0]
  lhsNonContracting := [0]
  rhsNonContracting := [1]
  lhsBatch := []
  rhsBatch := []
  wf := dot_S1000000x1_S1x1_S1000000x1_1_0_0_1_n_n_wf

class Facts : Prop extends Facts₀ where

variable [Facts]
-- ==== Proof.K.Region0.lean ====
/-
  The node-projection call (the first of the program's two kernel launches), one grid point at a time.

  At grid point `t` the call's body is handed rows `10000·t … 10000·t + 9999` of the two node tables and the two
  64-row slices of the weight column, and stores into each of its two result blocks ONE matrix product of a table
  block with a weight slice, over the whole block.  So after the body each result's staging buffer holds that product
  (a single store covering the buffer), the four input buffers are as they were, and nothing else is touched.  This
  module states that as the call's proof data (what every window's buffer holds after the body at every point) and
  proves the body's triple against it, for any contents `V` the buffers hold when the call is entered.
-/
import proofs.«135055_j31748398252727_2_alg».proof.Proof.Gen.Kernel.Launch
import proofs.«135055_j31748398252727_2_alg».proof.Proof.Gen.Kernel.Skeleton
import proofs.«135055_j31748398252727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not (a point that
    does not fetch it has the same block index as the point before). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rTab0 : Rect S10000x64 := Rect.unit (s := S10000x64) ![0, 0] S10000x64.size inb_S10000x64_S10000x64_0_0
abbrev rWt0 : Rect S64x1 := Rect.unit (s := S64x1) ![0, 0] S64x1.size inb_S64x1_S64x1_0_0
abbrev rRes0 : Rect S10000x1 := Rect.unit (s := S10000x1) ![0, 0] S10000x1.size inb_S10000x1_S10000x1_0_0

/-- What the body leaves in the first result's buffer: its one store, of the product of the first table's block with
    the first weight slice. -/
def out0_4 (x0 : Vec F S10000x64 .f32) (x2 : Vec F S64x1 .f32) : Vec F S10000x1 .f32 :=
  View.canon [⟨rRes0, k0_pay1 (View.ld x0 rTab0) (View.ld x2 rWt0)⟩]
/-- And in the second result's buffer: the product of the second table's block with the second weight slice. -/
def out0_5 (x1 : Vec F S10000x64 .f32) (x3 : Vec F S64x1 .f32) : Vec F S10000x1 .f32 :=
  View.canon [⟨rRes0, k0_pay2 (View.ld x1 rTab0) (View.ld x3 rWt0)⟩]

/-- The one store covers the result buffer. -/
theorem cover0_res (p0 : Vec F S10000x1 .f32) (y : S10000x1.Idx) :
    ∃ pc ∈ ([⟨rRes0, p0⟩] : List (View.Piece (Elt F) S10000x1 .f32)), y ∈ pc.1.set :=
  View.cover_of_tiled [⟨rRes0, p0⟩] S10000x1.size (by rfl) y

set_option maxHeartbeats 1000000 in
/-- THE BODY'S TRIPLE on whole staging buffers: from the four inputs at contents `x0 … x3` and the two results at
    anything, it runs to the end with the inputs as they were and each result holding its product. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S10000x1 .f32) (harg5 : arg5.IsWhole) (arg6 : Memref sig .tc .vmem S10000x1 .f32) (harg6 : arg6.IsWhole)
    (x0 x1 : Vec F S10000x64 .f32) (x2 x3 : Vec F S64x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x2) ∗ owns (c : Thread nD τ) arg6 fullShare (out0_5 x1 x3)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_res _)
  iexists _; isplitr
  swap; · iexact H5
  ipureintro
  exact View.read_writes_eq_canon _ _ _ (cover0_res _)

/-- THE CALL'S PROOF DATA on core `c`: the arrays as the call finds them; after the body at point `t` each input's
    buffer at its block and each result's at its product of the point's blocks; the class's invariant (the scoped
    buffers no window stages and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The edge-combine call (the second of the program's two kernel launches), one grid point at a time.

  At grid point `t` the call's body is handed rows `10000·t … 10000·t + 9999` of the three-column table of gathered
  per-edge scalars and of the edge attributes, beside the 8-row weight slice, the two biases and the 1×1 second-layer
  weight (the same small blocks at every point), and stores ONE value over its whole result block: the three gathered
  columns and the attributes' product summed, the first bias added, the leaky rectifier, the product with the 1×1
  weight, the second bias.  This module states that as the call's proof data and proves the body's triple against it,
  for any contents `V` the buffers hold when the call is entered.
-/
import proofs.«135055_j31748398252727_2_alg».proof.Proof.Gen.Kernel.Launch
import proofs.«135055_j31748398252727_2_alg».proof.Proof.Gen.Kernel.Skeleton
import proofs.«135055_j31748398252727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or not (a point that
    does not fetch it has the same block index as the point before). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rGath1 : Rect S10000x3 := Rect.unit (s := S10000x3) ![0, 0] S10000x3.size inb_S10000x3_S10000x3_0_0
abbrev rAttr1 : Rect S10000x8 := Rect.unit (s := S10000x8) ![0, 0] S10000x8.size inb_S10000x8_S10000x8_0_0
abbrev rWt1 : Rect S8x1 := Rect.unit (s := S8x1) ![0, 0] S8x1.size inb_S8x1_S8x1_0_0
abbrev rOne1 : Rect S1x1 := Rect.unit (s := S1x1) ![0, 0] S1x1.size inb_S1x1_S1x1_0_0
abbrev rRes1 : Rect S10000x1 := Rect.unit (s := S10000x1) ![0, 0] S10000x1.size inb_S10000x1_S10000x1_0_0

/-- What the body leaves in the result's buffer: its one store, of the edge model's value on the point's blocks. -/
def out1_6 (x0 : Vec F S10000x3 .f32) (x1 : Vec F S10000x8 .f32) (x2 : Vec F S8x1 .f32) (x3 x4 x5 : Vec F S1x1 .f32) : Vec F S10000x1 .f32 :=
  View.canon [⟨rRes1, k1_pay1 (View.ld x0 rGath1) (View.ld x1 rAttr1) (View.ld x2 rWt1) (View.ld x3 rOne1) (View.ld x4 rOne1) (View.ld x5 rOne1)⟩]

/-- The one store covers the result buffer. -/
theorem cover1_res (p0 : Vec F S10000x1 .f32) (y : S10000x1.Idx) :
    ∃ pc ∈ ([⟨rRes1, p0⟩] : List (View.Piece (Elt F) S10000x1 .f32)), y ∈ pc.1.set :=
  View.cover_of_tiled [⟨rRes1, p0⟩] S10000x1.size (by rfl) y

set_option maxHeartbeats 1000000 in
/-- THE BODY'S TRIPLE on whole staging buffers: from the six inputs at contents `x0 … x5` and the result at anything,
    it runs to the end with the inputs as they were and the result holding the edge model's value. -/
theorem sound_kernel1 (c : Dev nD) (E : Set ℕ) (i : grid1.Coords)
    (arg1 : Memref sig .tc .vmem S10000x3 .f32) (harg1 : arg1.IsWhole) (arg2 : Memref sig .tc .vmem S10000x8 .f32) (harg2 : arg2.IsWhole)
    (arg3 : Memref sig .tc .vmem S8x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S10000x1 .f32) (harg7 : arg7.IsWhole)
    (x0 : Vec F S10000x3 .f32) (x1 : Vec F S10000x8 .f32) (x2 : Vec F S8x1 .f32) (x3 x4 x5 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__edge_kernel i arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_res _)

/-- THE CALL'S PROOF DATA on core `c`: the arrays as the call finds them; after the body at point `t` each input's
    buffer at its block and the result's at the edge model's value on the point's blocks; the class's invariant;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the program: its host operations and its two kernel launches in order, from the launch memory to
  the return, with every buffer's contents named at every boundary.

  Between two items every buffer that outlives a launch is held whole at a known value: the launch memory, then what
  the four weight slices' operations make of it, then the first launch's two results at what its grid's write-backs
  leave (every other buffer as before), then what the thirty-five host operations in between make of that, then the
  second launch's result at what its write-backs leave.  No item writes an argument array, so each ends as launched.
-/
import proofs.«135055_j31748398252727_2_alg».proof.Proof.Gen.Kernel.Regions
import proofs.«135055_j31748398252727_2_alg».proof.Proof.K.Region0
import proofs.«135055_j31748398252727_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The buffers as the first launch finds them: the launch memory after the first stretch of host operations. -/
abbrev E0 : (c : Dev nD) → (b : Ref sig .tc) → Buf (Elt F) ((c : Thread nD τ).loc b) := fun c b => Gen.V1 m c b

/-- After the first launch: its arrays at what the grid's write-backs leave, every other buffer as entered. -/
def Wa (c : Dev nD) : Valuation τ sig (Elt F) :=
  Pipeline.withArrays spec0 c (Gen.V1 m c) fun w => (dat0 (E0 m) c).arrAt w cfg0.N
theorem Wa_arr (c : Dev nD) (w : Fin cfg0.W) :
    Wa m c (Proc.devRef .tc (Pipeline.arrRef spec0 w)) = (dat0 (E0 m) c).arrAt w cfg0.N := by
  unfold Wa; exact Pipeline.withArrays_arr spec0 launch0.win.arr_inj c _ _ w

/-- What the first launch leaves, as the unknowns the boundary valuations are written over. -/
def outsA : Gen.Outs (F := F) := fun _ r c => Wa m c r

/-- The buffers as the second launch finds them. -/
abbrev E1 : (c : Dev nD) → (b : Ref sig .tc) → Buf (Elt F) ((c : Thread nD τ).loc b) := fun c b => Gen.V3 m (outsA m) c b

/-- After the second launch: its arrays at what the grid's write-backs leave, every other buffer as entered. -/
def Wb (c : Dev nD) : Valuation τ sig (Elt F) :=
  Pipeline.withArrays spec1 c (Gen.V3 m (outsA m) c) fun w => (dat1 (E1 m) c).arrAt w cfg1.N
theorem Wb_arr (c : Dev nD) (w : Fin cfg1.W) :
    Wb m c (Proc.devRef .tc (Pipeline.arrRef spec1 w)) = (dat1 (E1 m) c).arrAt w cfg1.N := by
  unfold Wb; exact Pipeline.withArrays_arr spec1 launch1.win.arr_inj c _ _ w

/-- What each launch leaves in the buffers it may change: the first launch's two results, then the second's one. -/
def outs : Gen.Outs (F := F) := fun J r c => match J with
  | 2 => Wa m c r
  | _ => Wb m c r

theorem V2_outs (c : Dev nD) : Gen.V2 m (outs m) c = Gen.V2 m (outsA m) c := rfl
theorem V3_outs (c : Dev nD) : Gen.V3 m (outs m) c = Gen.V3 m (outsA m) c := rfl

/-- The first launch's results after it. -/
theorem V2_v4_0 (c : Dev nD) : Gen.V2 m (outsA m) c main_v4_0 = (dat0 (E0 m) c).arrAt 4 cfg0.N := by
  simp only [Gen.V2, Function.update_of_ne (StableHlo.devRef_ne_of_ne (by decide) : (Proc.devRef .tc main_v4_0 : DevRef τ sig) ≠ Proc.devRef .tc main_v4_1), Function.update_self]
  exact Wa_arr m c 4
theorem V2_v4_1 (c : Dev nD) : Gen.V2 m (outsA m) c main_v4_1 = (dat0 (E0 m) c).arrAt 5 cfg0.N := by
  simp only [Gen.V2, Function.update_self]
  exact Wa_arr m c 5
/-- The second launch's result after it. -/
theorem V4_v34 (c : Dev nD) : Gen.V4 m (outs m) c main_v34 = (dat1 (E1 m) c).arrAt 6 cfg1.N := by
  simp only [Gen.V4, Function.update_self]
  exact Wb_arr m c 6

/-- At the first launch's exit each of its arrays holds what the grid leaves, -/
theorem hF0 (c : Dev nD) (w : Fin cfg0.W) : (dat0 (E0 m) c).arrAt w cfg0.N = Gen.V2 m (outsA m) c (Pipeline.arrRef spec0 w) :=
  match w with
  | ⟨0, _⟩ => ((dat0 (E0 m) c).arrAt_in 0 rfl _).trans ((A_eq0 (E0 m) c 0).trans (Gen.V2_of m (outsA m) c main_arg0 (by decide)).symm)
  | ⟨1, _⟩ => ((dat0 (E0 m) c).arrAt_in 1 rfl _).trans ((A_eq0 (E0 m) c 1).trans (Gen.V2_of m (outsA m) c main_arg1 (by decide)).symm)
  | ⟨2, _⟩ => ((dat0 (E0 m) c).arrAt_in 2 rfl _).trans ((A_eq0 (E0 m) c 2).trans (Gen.V2_of m (outsA m) c main_v0 (by decide)).symm)
  | ⟨3, _⟩ => ((dat0 (E0 m) c).arrAt_in 3 rfl _).trans ((A_eq0 (E0 m) c 3).trans (Gen.V2_of m (outsA m) c main_v1 (by decide)).symm)
  | ⟨4, _⟩ => (V2_v4_0 m c).symm
  | ⟨5, _⟩ => (V2_v4_1 m c).symm
/-- and every other buffer what it held at entry. -/
theorem hrest0 (c : Dev nD) : ∀ b, b ∉ Finset.univ.image (Pipeline.arrRef spec0) → Gen.V2 m (outsA m) c b = Gen.V1 m c b :=
  fun b hb => Gen.V2_of m (outsA m) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h List.not_mem_nil)

/-- At the second launch's exit each of its arrays holds what the grid leaves, -/
theorem hF1 (c : Dev nD) (w : Fin cfg1.W) : (dat1 (E1 m) c).arrAt w cfg1.N = Gen.V4 m (outs m) c (Pipeline.arrRef spec1 w) :=
  match w with
  | ⟨0, _⟩ => ((dat1 (E1 m) c).arrAt_in 0 rfl _).trans ((A_eq1 (E1 m) c 0).trans (Gen.V4_of m (outs m) c main_v31 (by decide)).symm)
  | ⟨1, _⟩ => ((dat1 (E1 m) c).arrAt_in 1 rfl _).trans ((A_eq1 (E1 m) c 1).trans (Gen.V4_of m (outs m) c main_arg2 (by decide)).symm)
  | ⟨2, _⟩ => ((dat1 (E1 m) c).arrAt_in 2 rfl _).trans ((A_eq1 (E1 m) c 2).trans (Gen.V4_of m (outs m) c main_v2 (by decide)).symm)
  | ⟨3, _⟩ => ((dat1 (E1 m) c).arrAt_in 3 rfl _).trans ((A_eq1 (E1 m) c 3).trans (Gen.V4_of m (outs m) c main_v32 (by decide)).symm)
  | ⟨4, _⟩ => ((dat1 (E1 m) c).arrAt_in 4 rfl _).trans ((A_eq1 (E1 m) c 4).trans (Gen.V4_of m (outs m) c main_arg8 (by decide)).symm)
  | ⟨5, _⟩ => ((dat1 (E1 m) c).arrAt_in 5 rfl _).trans ((A_eq1 (E1 m) c 5).trans (Gen.V4_of m (outs m) c main_v33 (by decide)).symm)
  | ⟨6, _⟩ => (V4_v34 m c).symm
/-- and every other buffer what it held at entry. -/
theorem hrest1 (c : Dev nD) : ∀ b, b ∉ Finset.univ.image (Pipeline.arrRef spec1) → Gen.V4 m (outs m) c b = Gen.V3 m (outsA m) c b :=
  fun b hb => Gen.V4_of m (outs m) c b (by
    intro h
    rcases List.mem_cons.mp h with rfl | h
    · exact hb (Finset.mem_image.mpr ⟨6, Finset.mem_univ _, rfl⟩)
    · exact absurd h List.not_mem_nil)

/-! ## The proof data family and the thread state -/

/-- Both launches' proof data, each at its launch's entry contents. -/
def pdats : (p : Fin 2) → (c : Dev nD) → Dat τ (Elt F) Unit ℕ (Pipeline.UD sig nD τ) ℕ (cfgs p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as items of the run -/

set_option backward.isDefEq.respectTransparency.types false in
/-- THE FIRST LAUNCH over the thread state: entered from every buffer at the contents after the first host stretch,
    left with its two results at what the grid leaves.  Its arrays are split out of the held buffers and put back at
    the exit contents; the generator register goes into the class's invariant and out; nothing is owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (E0 m c) (fun b => Gen.V2 m (outsA m) c b) ((pdats m 0 c).arrAt · cfg0.N) (hF0 m c) (hrest0 m c)
    rw [Pipeline.unscopedBufs_held] at hjoin
    rw [V2_outs]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every buffer at the contents after the second host stretch,
    left with its result at what the grid leaves. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (E1 m c)
  hentry c := by
    rw [Pipeline.ownSems0_none, V3_outs]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (E1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters, every weakly fair execution of the program terminates, nothing
    faulting, and in every final state each buffer that outlives the launches holds the last boundary's contents. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = Gen.V4 m (outs m) c b) := by
  refine Pipeline.θ_run_regions_kit_dev (pcfgs (F := F)) Gen.adm (pdats m) () cellOf_inj embL defs₀ 𝒱₀ L lv m ρ main
    (Gen.segs m (outs m) 𝒱₀ L lv (fun _ => R) () (pdats m) (reg0 m) (reg1 m))
    (fun c Q => by
      rewrite [main_chain c, Pipeline.Seg.run_eq_chain,
        show (Gen.segs m (outs m) 𝒱₀ L lv (fun _ => R) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨Hh, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun _ h => h)

/-- THE FRAME: the program runs to the end, nothing faulting, and every argument array ends as launched (no host
    operation and no launch writes one). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c),
     (h c _ (mem_uc main_arg5 (by decide))).trans (Gen.V4_main_arg5 m (outs m) c),
     (h c _ (mem_uc main_arg6 (by decide))).trans (Gen.V4_main_arg6 m (outs m) c),
     (h c _ (mem_uc main_arg7 (by decide))).trans (Gen.V4_main_arg7 m (outs m) c),
     (h c _ (mem_uc main_arg8 (by decide))).trans (Gen.V4_main_arg8 m (outs m) c),
     (h c _ (mem_uc main_arg9 (by decide))).trans (Gen.V4_main_arg9 m (outs m) c)⟩) (run_all m ρ)

end Cert.Kernel.Hand

end
-- ==== Proof.KI.Region0.lean ====
/-
  The node-projection call (the first of the program's two kernel launches), one grid point at a time.

  At grid point `t` the call's body is handed rows `10000·t … 10000·t + 9999` of the two node tables and the two
  64-row slices of the weight column, and stores into each of its two result blocks ONE matrix product of a table
  block with a weight slice, over the whole block.  So after the body each result's staging buffer holds that product
  (a single store covering the buffer), the four input buffers are as they were, and nothing else is touched.  This
  module states that as the call's proof data (what every window's buffer holds after the body at every point) and
  proves the body's triple against it, for any contents `V` the buffers hold when the call is entered.
-/
import proofs.«135055_j31748398252727_2_alg».proof.Proof.Gen.KernelIdeal.Launch
import proofs.«135055_j31748398252727_2_alg».proof.Proof.Gen.KernelIdeal.Skeleton
import proofs.«135055_j31748398252727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not (a point that
    does not fetch it has the same block index as the point before). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rTab0 : Rect S10000x64 := Rect.unit (s := S10000x64) ![0, 0] S10000x64.size inb_S10000x64_S10000x64_0_0
abbrev rWt0 : Rect S64x1 := Rect.unit (s := S64x1) ![0, 0] S64x1.size inb_S64x1_S64x1_0_0
abbrev rRes0 : Rect S10000x1 := Rect.unit (s := S10000x1) ![0, 0] S10000x1.size inb_S10000x1_S10000x1_0_0

/-- What the body leaves in the first result's buffer: its one store, of the product of the first table's block with
    the first weight slice. -/
def out0_4 (x0 : Vec F S10000x64 .f32) (x2 : Vec F S64x1 .f32) : Vec F S10000x1 .f32 :=
  View.canon [⟨rRes0, k0_pay1 (View.ld x0 rTab0) (View.ld x2 rWt0)⟩]
/-- And in the second result's buffer: the product of the second table's block with the second weight slice. -/
def out0_5 (x1 : Vec F S10000x64 .f32) (x3 : Vec F S64x1 .f32) : Vec F S10000x1 .f32 :=
  View.canon [⟨rRes0, k0_pay2 (View.ld x1 rTab0) (View.ld x3 rWt0)⟩]

/-- The one store covers the result buffer. -/
theorem cover0_res (p0 : Vec F S10000x1 .f32) (y : S10000x1.Idx) :
    ∃ pc ∈ ([⟨rRes0, p0⟩] : List (View.Piece (Elt F) S10000x1 .f32)), y ∈ pc.1.set :=
  View.cover_of_tiled [⟨rRes0, p0⟩] S10000x1.size (by rfl) y

set_option maxHeartbeats 1000000 in
/-- THE BODY'S TRIPLE on whole staging buffers: from the four inputs at contents `x0 … x3` and the two results at
    anything, it runs to the end with the inputs as they were and each result holding its product. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S10000x1 .f32) (harg5 : arg5.IsWhole) (arg6 : Memref sig .tc .vmem S10000x1 .f32) (harg6 : arg6.IsWhole)
    (x0 x1 : Vec F S10000x64 .f32) (x2 x3 : Vec F S64x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x2) ∗ owns (c : Thread nD τ) arg6 fullShare (out0_5 x1 x3)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_res _)
  iexists _; isplitr
  swap; · iexact H5
  ipureintro
  exact View.read_writes_eq_canon _ _ _ (cover0_res _)

/-- THE CALL'S PROOF DATA on core `c`: the arrays as the call finds them; after the body at point `t` each input's
    buffer at its block and each result's at its product of the point's blocks; the class's invariant (the scoped
    buffers no window stages and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The edge-combine call (the second of the program's two kernel launches), one grid point at a time.

  At grid point `t` the call's body is handed rows `10000·t … 10000·t + 9999` of the three-column table of gathered
  per-edge scalars and of the edge attributes, beside the 8-row weight slice, the two biases and the 1×1 second-layer
  weight (the same small blocks at every point), and stores ONE value over its whole result block: the three gathered
  columns and the attributes' product summed, the first bias added, the leaky rectifier, the product with the 1×1
  weight, the second bias.  This module states that as the call's proof data and proves the body's triple against it,
  for any contents `V` the buffers hold when the call is entered.
-/
import proofs.«135055_j31748398252727_2_alg».proof.Proof.Gen.KernelIdeal.Launch
import proofs.«135055_j31748398252727_2_alg».proof.Proof.Gen.KernelIdeal.Skeleton
import proofs.«135055_j31748398252727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or not (a point that
    does not fetch it has the same block index as the point before). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rGath1 : Rect S10000x3 := Rect.unit (s := S10000x3) ![0, 0] S10000x3.size inb_S10000x3_S10000x3_0_0
abbrev rAttr1 : Rect S10000x8 := Rect.unit (s := S10000x8) ![0, 0] S10000x8.size inb_S10000x8_S10000x8_0_0
abbrev rWt1 : Rect S8x1 := Rect.unit (s := S8x1) ![0, 0] S8x1.size inb_S8x1_S8x1_0_0
abbrev rOne1 : Rect S1x1 := Rect.unit (s := S1x1) ![0, 0] S1x1.size inb_S1x1_S1x1_0_0
abbrev rRes1 : Rect S10000x1 := Rect.unit (s := S10000x1) ![0, 0] S10000x1.size inb_S10000x1_S10000x1_0_0

/-- What the body leaves in the result's buffer: its one store, of the edge model's value on the point's blocks. -/
def out1_6 (x0 : Vec F S10000x3 .f32) (x1 : Vec F S10000x8 .f32) (x2 : Vec F S8x1 .f32) (x3 x4 x5 : Vec F S1x1 .f32) : Vec F S10000x1 .f32 :=
  View.canon [⟨rRes1, k1_pay1 (View.ld x0 rGath1) (View.ld x1 rAttr1) (View.ld x2 rWt1) (View.ld x3 rOne1) (View.ld x4 rOne1) (View.ld x5 rOne1)⟩]

/-- The one store covers the result buffer. -/
theorem cover1_res (p0 : Vec F S10000x1 .f32) (y : S10000x1.Idx) :
    ∃ pc ∈ ([⟨rRes1, p0⟩] : List (View.Piece (Elt F) S10000x1 .f32)), y ∈ pc.1.set :=
  View.cover_of_tiled [⟨rRes1, p0⟩] S10000x1.size (by rfl) y

set_option maxHeartbeats 1000000 in
/-- THE BODY'S TRIPLE on whole staging buffers: from the six inputs at contents `x0 … x5` and the result at anything,
    it runs to the end with the inputs as they were and the result holding the edge model's value. -/
theorem sound_kernel1 (c : Dev nD) (E : Set ℕ) (i : grid1.Coords)
    (arg1 : Memref sig .tc .vmem S10000x3 .f32) (harg1 : arg1.IsWhole) (arg2 : Memref sig .tc .vmem S10000x8 .f32) (harg2 : arg2.IsWhole)
    (arg3 : Memref sig .tc .vmem S8x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S10000x1 .f32) (harg7 : arg7.IsWhole)
    (x0 : Vec F S10000x3 .f32) (x1 : Vec F S10000x8 .f32) (x2 : Vec F S8x1 .f32) (x3 x4 x5 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__edge_kernel i arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_res _)

/-- THE CALL'S PROOF DATA on core `c`: the arrays as the call finds them; after the body at point `t` each input's
    buffer at its block and the result's at the edge model's value on the point's blocks; the class's invariant;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the program: its host operations and its two kernel launches in order, from the launch memory to
  the return, with every buffer's contents named at every boundary.

  Between two items every buffer that outlives a launch is held whole at a known value: the launch memory, then what
  the four weight slices' operations make of it, then the first launch's two results at what its grid's write-backs
  leave (every other buffer as before), then what the thirty-five host operations in between make of that, then the
  second launch's result at what its write-backs leave.  No item writes an argument array, so each ends as launched.
-/
import proofs.«135055_j31748398252727_2_alg».proof.Proof.Gen.KernelIdeal.Regions
import proofs.«135055_j31748398252727_2_alg».proof.Proof.KI.Region0
import proofs.«135055_j31748398252727_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The buffers as the first launch finds them: the launch memory after the first stretch of host operations. -/
abbrev E0 : (c : Dev nD) → (b : Ref sig .tc) → Buf (Elt F) ((c : Thread nD τ).loc b) := fun c b => Gen.V1 m c b

/-- After the first launch: its arrays at what the grid's write-backs leave, every other buffer as entered. -/
def Wa (c : Dev nD) : Valuation τ sig (Elt F) :=
  Pipeline.withArrays spec0 c (Gen.V1 m c) fun w => (dat0 (E0 m) c).arrAt w cfg0.N
theorem Wa_arr (c : Dev nD) (w : Fin cfg0.W) :
    Wa m c (Proc.devRef .tc (Pipeline.arrRef spec0 w)) = (dat0 (E0 m) c).arrAt w cfg0.N := by
  unfold Wa; exact Pipeline.withArrays_arr spec0 launch0.win.arr_inj c _ _ w

/-- What the first launch leaves, as the unknowns the boundary valuations are written over. -/
def outsA : Gen.Outs (F := F) := fun _ r c => Wa m c r

/-- The buffers as the second launch finds them. -/
abbrev E1 : (c : Dev nD) → (b : Ref sig .tc) → Buf (Elt F) ((c : Thread nD τ).loc b) := fun c b => Gen.V3 m (outsA m) c b

/-- After the second launch: its arrays at what the grid's write-backs leave, every other buffer as entered. -/
def Wb (c : Dev nD) : Valuation τ sig (Elt F) :=
  Pipeline.withArrays spec1 c (Gen.V3 m (outsA m) c) fun w => (dat1 (E1 m) c).arrAt w cfg1.N
theorem Wb_arr (c : Dev nD) (w : Fin cfg1.W) :
    Wb m c (Proc.devRef .tc (Pipeline.arrRef spec1 w)) = (dat1 (E1 m) c).arrAt w cfg1.N := by
  unfold Wb; exact Pipeline.withArrays_arr spec1 launch1.win.arr_inj c _ _ w

/-- What each launch leaves in the buffers it may change: the first launch's two results, then the second's one. -/
def outs : Gen.Outs (F := F) := fun J r c => match J with
  | 2 => Wa m c r
  | _ => Wb m c r

theorem V2_outs (c : Dev nD) : Gen.V2 m (outs m) c = Gen.V2 m (outsA m) c := rfl
theorem V3_outs (c : Dev nD) : Gen.V3 m (outs m) c = Gen.V3 m (outsA m) c := rfl

/-- The first launch's results after it. -/
theorem V2_v4_0 (c : Dev nD) : Gen.V2 m (outsA m) c main_v4_0 = (dat0 (E0 m) c).arrAt 4 cfg0.N := by
  simp only [Gen.V2, Function.update_of_ne (StableHlo.devRef_ne_of_ne (by decide) : (Proc.devRef .tc main_v4_0 : DevRef τ sig) ≠ Proc.devRef .tc main_v4_1), Function.update_self]
  exact Wa_arr m c 4
theorem V2_v4_1 (c : Dev nD) : Gen.V2 m (outsA m) c main_v4_1 = (dat0 (E0 m) c).arrAt 5 cfg0.N := by
  simp only [Gen.V2, Function.update_self]
  exact Wa_arr m c 5
/-- The second launch's result after it. -/
theorem V4_v34 (c : Dev nD) : Gen.V4 m (outs m) c main_v34 = (dat1 (E1 m) c).arrAt 6 cfg1.N := by
  simp only [Gen.V4, Function.update_self]
  exact Wb_arr m c 6

/-- At the first launch's exit each of its arrays holds what the grid leaves, -/
theorem hF0 (c : Dev nD) (w : Fin cfg0.W) : (dat0 (E0 m) c).arrAt w cfg0.N = Gen.V2 m (outsA m) c (Pipeline.arrRef spec0 w) :=
  match w with
  | ⟨0, _⟩ => ((dat0 (E0 m) c).arrAt_in 0 rfl _).trans ((A_eq0 (E0 m) c 0).trans (Gen.V2_of m (outsA m) c main_arg0 (by decide)).symm)
  | ⟨1, _⟩ => ((dat0 (E0 m) c).arrAt_in 1 rfl _).trans ((A_eq0 (E0 m) c 1).trans (Gen.V2_of m (outsA m) c main_arg1 (by decide)).symm)
  | ⟨2, _⟩ => ((dat0 (E0 m) c).arrAt_in 2 rfl _).trans ((A_eq0 (E0 m) c 2).trans (Gen.V2_of m (outsA m) c main_v0 (by decide)).symm)
  | ⟨3, _⟩ => ((dat0 (E0 m) c).arrAt_in 3 rfl _).trans ((A_eq0 (E0 m) c 3).trans (Gen.V2_of m (outsA m) c main_v1 (by decide)).symm)
  | ⟨4, _⟩ => (V2_v4_0 m c).symm
  | ⟨5, _⟩ => (V2_v4_1 m c).symm
/-- and every other buffer what it held at entry. -/
theorem hrest0 (c : Dev nD) : ∀ b, b ∉ Finset.univ.image (Pipeline.arrRef spec0) → Gen.V2 m (outsA m) c b = Gen.V1 m c b :=
  fun b hb => Gen.V2_of m (outsA m) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h List.not_mem_nil)

/-- At the second launch's exit each of its arrays holds what the grid leaves, -/
theorem hF1 (c : Dev nD) (w : Fin cfg1.W) : (dat1 (E1 m) c).arrAt w cfg1.N = Gen.V4 m (outs m) c (Pipeline.arrRef spec1 w) :=
  match w with
  | ⟨0, _⟩ => ((dat1 (E1 m) c).arrAt_in 0 rfl _).trans ((A_eq1 (E1 m) c 0).trans (Gen.V4_of m (outs m) c main_v31 (by decide)).symm)
  | ⟨1, _⟩ => ((dat1 (E1 m) c).arrAt_in 1 rfl _).trans ((A_eq1 (E1 m) c 1).trans (Gen.V4_of m (outs m) c main_arg2 (by decide)).symm)
  | ⟨2, _⟩ => ((dat1 (E1 m) c).arrAt_in 2 rfl _).trans ((A_eq1 (E1 m) c 2).trans (Gen.V4_of m (outs m) c main_v2 (by decide)).symm)
  | ⟨3, _⟩ => ((dat1 (E1 m) c).arrAt_in 3 rfl _).trans ((A_eq1 (E1 m) c 3).trans (Gen.V4_of m (outs m) c main_v32 (by decide)).symm)
  | ⟨4, _⟩ => ((dat1 (E1 m) c).arrAt_in 4 rfl _).trans ((A_eq1 (E1 m) c 4).trans (Gen.V4_of m (outs m) c main_arg8 (by decide)).symm)
  | ⟨5, _⟩ => ((dat1 (E1 m) c).arrAt_in 5 rfl _).trans ((A_eq1 (E1 m) c 5).trans (Gen.V4_of m (outs m) c main_v33 (by decide)).symm)
  | ⟨6, _⟩ => (V4_v34 m c).symm
/-- and every other buffer what it held at entry. -/
theorem hrest1 (c : Dev nD) : ∀ b, b ∉ Finset.univ.image (Pipeline.arrRef spec1) → Gen.V4 m (outs m) c b = Gen.V3 m (outsA m) c b :=
  fun b hb => Gen.V4_of m (outs m) c b (by
    intro h
    rcases List.mem_cons.mp h with rfl | h
    · exact hb (Finset.mem_image.mpr ⟨6, Finset.mem_univ _, rfl⟩)
    · exact absurd h List.not_mem_nil)

/-! ## The proof data family and the thread state -/

/-- Both launches' proof data, each at its launch's entry contents. -/
def pdats : (p : Fin 2) → (c : Dev nD) → Dat τ (Elt F) Unit ℕ (Pipeline.UD sig nD τ) ℕ (cfgs p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as items of the run -/

set_option backward.isDefEq.respectTransparency.types false in
/-- THE FIRST LAUNCH over the thread state: entered from every buffer at the contents after the first host stretch,
    left with its two results at what the grid leaves.  Its arrays are split out of the held buffers and put back at
    the exit contents; the generator register goes into the class's invariant and out; nothing is owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (E0 m c) (fun b => Gen.V2 m (outsA m) c b) ((pdats m 0 c).arrAt · cfg0.N) (hF0 m c) (hrest0 m c)
    rw [Pipeline.unscopedBufs_held] at hjoin
    rw [V2_outs]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every buffer at the contents after the second host stretch,
    left with its result at what the grid leaves. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (E1 m c)
  hentry c := by
    rw [Pipeline.ownSems0_none, V3_outs]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (E1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters, every weakly fair execution of the program terminates, nothing
    faulting, and in every final state each buffer that outlives the launches holds the last boundary's contents. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = Gen.V4 m (outs m) c b) := by
  refine Pipeline.θ_run_regions_kit_dev (pcfgs (F := F)) Gen.adm (pdats m) () cellOf_inj embL defs₀ 𝒱₀ L lv m ρ main
    (Gen.segs m (outs m) 𝒱₀ L lv (fun _ => R) () (pdats m) (reg0 m) (reg1 m))
    (fun c Q => by
      rewrite [main_chain c, Pipeline.Seg.run_eq_chain,
        show (Gen.segs m (outs m) 𝒱₀ L lv (fun _ => R) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨Hh, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun _ h => h)

/-- THE FRAME: the program runs to the end, nothing faulting, and every argument array ends as launched (no host
    operation and no launch writes one). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c),
     (h c _ (mem_uc main_arg5 (by decide))).trans (Gen.V4_main_arg5 m (outs m) c),
     (h c _ (mem_uc main_arg6 (by decide))).trans (Gen.V4_main_arg6 m (outs m) c),
     (h c _ (mem_uc main_arg7 (by decide))).trans (Gen.V4_main_arg7 m (outs m) c),
     (h c _ (mem_uc main_arg8 (by decide))).trans (Gen.V4_main_arg8 m (outs m) c),
     (h c _ (mem_uc main_arg9 (by decide))).trans (Gen.V4_main_arg9 m (outs m) c)⟩) (run_all m ρ)

end Cert.KernelIdeal.Hand

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Spec.lean ====
/-
  The edge model as one function of its ten argument arrays.

  For edge `e` with end nodes `s = src e`, `t = tgt e` and graph `g = bat e` (row numbers read off the integer arrays,
  a negative one wrapped once by the table's height, then clamped into the table as a gather clamps), the hidden value is
      pre e = ((x_h[s] · W1[0:64] + x_g[t] · W1[64:128]) + u[g] · W1[136:152]) + edge_attr[e] · W1[128:136] + b1
  and the result is `leaky (pre e) · W2 + b2` with `leaky h = h` for `h ≥ 0` and `0.1f · h` otherwise.  Every sum and
  product is the extended reals' own; nothing here needs an entry to be finite.
-/
import Idealize.ShloMosaic.PureOps.Ideal
import Idealize.ShloMosaic.Lib.ValueIdx
import proofs.«135055_j31748398252727_2_alg».proof.Proof.LibRows
import proofs.«135055_j31748398252727_2_alg».proof.Proof.LibDense

noncomputable section

namespace Cert.EdgeMlp

open Idealize.ShloMosaic Idealize.ShloMosaic.ValueIdx Cert.Lib.Rows

theorem sl0 : (⟨2, ![2, 1000000]⟩ : Shape).Slices ![0, 0] ⟨2, ![1, 1000000]⟩ := by decide
theorem sl1 : (⟨2, ![2, 1000000]⟩ : Shape).Slices ![1, 0] ⟨2, ![1, 1000000]⟩ := by decide
theorem sc : (⟨2, ![1, 1000000]⟩ : Shape).ShapeCasts ⟨1, ![1000000]⟩ := by decide
theorem bc0 : (⟨0, ![]⟩ : Shape).BroadcastsInDim ⟨1, ![1000000]⟩ (![] : Fin 0 → Fin 1) := by decide
theorem bc1 : (⟨1, ![1000000]⟩ : Shape).BroadcastsInDim ⟨2, ![1000000, 1]⟩ (![0] : Fin 1 → Fin 2) := by decide

/-- Row numbers `v : [E]` with a negative one wrapped by the table's height `n`, laid out as the column `[E, 1]` a
    gather takes. -/
def rowCol (n : BitVec 32) (v : IVec ⟨1, ![1000000]⟩ 32) : IVec ⟨2, ![1000000, 1]⟩ 32 :=
  broadcastInDim ⟨2, ![1000000, 1]⟩ ![0] bc1
    (select (cmpi .slt v (broadcastInDim ⟨1, ![1000000]⟩ ![] bc0 (constantI ⟨0, ![]⟩ 32 0#32)))
      (addi v (broadcastInDim ⟨1, ![1000000]⟩ ![] bc0 (constantI ⟨0, ![]⟩ 32 n))) v)

/-- The source-node row numbers: row 0 of the edge list. -/
def srcRows (ei : IVec ⟨2, ![2, 1000000]⟩ 32) : IVec ⟨2, ![1000000, 1]⟩ 32 :=
  rowCol 100000#32 (shapeCast ⟨1, ![1000000]⟩ (extractStridedSlice ⟨2, ![1, 1000000]⟩ ![0, 0] ei sl0) sc)
/-- The target-node row numbers: row 1 of the edge list. -/
def tgtRows (ei : IVec ⟨2, ![2, 1000000]⟩ 32) : IVec ⟨2, ![1000000, 1]⟩ 32 :=
  rowCol 100000#32 (shapeCast ⟨1, ![1000000]⟩ (extractStridedSlice ⟨2, ![1, 1000000]⟩ ![1, 0] ei sl1) sc)
/-- The graph row numbers. -/
def batRows (be : IVec ⟨1, ![1000000]⟩ 32) : IVec ⟨2, ![1000000, 1]⟩ 32 := rowCol 64#32 be

/-- Rows `off … off + K − 1` of the weight column. -/
def wcol (W1 : (⟨2, ![152, 1]⟩ : Shape).Idx → EReal) (off K : Nat) (h : off + K ≤ 152) : (⟨2, ![K, 1]⟩ : Shape).Idx → EReal :=
  fun i => W1 (ix2 ⟨off + (i 0).val, by have := idx2_lt0 i; omega⟩ (0 : Fin 1))

/-- The hidden value of edge `e` before the activation. -/
def pre (xh xg : (⟨2, ![100000, 64]⟩ : Shape).Idx → EReal) (ea : (⟨2, ![1000000, 8]⟩ : Shape).Idx → EReal)
    (u : (⟨2, ![64, 16]⟩ : Shape).Idx → EReal) (ei : IVec ⟨2, ![2, 1000000]⟩ 32) (be : IVec ⟨1, ![1000000]⟩ 32)
    (W1 : (⟨2, ![152, 1]⟩ : Shape).Idx → EReal) (b1 : (⟨1, ![1]⟩ : Shape).Idx → EReal) (e : Fin 1000000) : EReal :=
  (((Cert.LibDense.prod xh (wcol W1 0 64 (by omega)) (ix2 (rowOf 100000 (by omega) (srcRows ei (ix2 e (0 : Fin 1)))) (0 : Fin 1))
      + Cert.LibDense.prod xg (wcol W1 64 64 (by omega)) (ix2 (rowOf 100000 (by omega) (tgtRows ei (ix2 e (0 : Fin 1)))) (0 : Fin 1)))
      + Cert.LibDense.prod u (wcol W1 136 16 (by omega)) (ix2 (rowOf 64 (by omega) (batRows be (ix2 e (0 : Fin 1)))) (0 : Fin 1)))
      + Cert.LibDense.prod ea (wcol W1 128 8 (by omega)) (ix2 e (0 : Fin 1)))
    + b1 (ix1 (0 : Fin 1))

/-- The leaky rectifier with slope `0.1f` (the f32 word `0x3DCCCCCD`), on the extended reals. -/
def leaky (h : EReal) : EReal :=
  Scalar.select (FloatOps.cmpf (F := Ideal) (φ := .f32) .oge h (Ideal.ofBits .f32 0x00000000#32)) h
    (Ideal.ofBits .f32 0x3DCCCCCD#32 * h)

/-- THE RESULT, entry by entry. -/
def G (xh xg : (⟨2, ![100000, 64]⟩ : Shape).Idx → EReal) (ea : (⟨2, ![1000000, 8]⟩ : Shape).Idx → EReal)
    (u : (⟨2, ![64, 16]⟩ : Shape).Idx → EReal) (ei : IVec ⟨2, ![2, 1000000]⟩ 32) (be : IVec ⟨1, ![1000000]⟩ 32)
    (W1 : (⟨2, ![152, 1]⟩ : Shape).Idx → EReal) (b1 : (⟨1, ![1]⟩ : Shape).Idx → EReal)
    (W2 : (⟨2, ![1, 1]⟩ : Shape).Idx → EReal) (b2 : (⟨1, ![1]⟩ : Shape).Idx → EReal) :
    (⟨2, ![1000000, 1]⟩ : Shape).Idx → EReal :=
  fun j => leaky (pre xh xg ea u ei be W1 b1 (j 0)) * W2 (ix2 (0 : Fin 1) (0 : Fin 1)) + b2 (ix1 (0 : Fin 1))

end Cert.EdgeMlp

end
-- ==== Proof.KI.Payload.lean ====
/-
  The two launches' stored values, entry by entry, on the extended reals.

  The node-projection call stores a matrix product of a 10000×64 block with a 64×1 weight slice into a zero
  accumulator: entry (r, 0) is the row-by-column sum.  The edge-combine call stores, at row r of its block, the sum of the
  three gathered scalars of the row and of the row's attribute product, plus the first bias, through the leaky
  rectifier, times the 1×1 second-layer weight (a one-term sum), plus the second bias.
-/
import proofs.«135055_j31748398252727_2_alg».proof.Proof.Gen.KernelIdeal.Skeleton
import proofs.«135055_j31748398252727_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The first launch's first stored value at row `r`: the row of the table block against the weight slice. -/
theorem pay0_1_apply (x : Vec Ideal S10000x64 .f32) (w : Vec Ideal S64x1 .f32) (r : Fin 10000) :
    k0_pay1 (F := Ideal) x w (ix2 r (0 : Fin 1)) = Cert.LibDense.prod x w (ix2 r (0 : Fin 1)) := by
  unfold k0_pay1
  rw [shapeCast_self]
  exact Cert.LibDense.matmul_plain x w (ix2 r (0 : Fin 1))

/-- The first launch's second stored value at row `r`. -/
theorem pay0_2_apply (x : Vec Ideal S10000x64 .f32) (w : Vec Ideal S64x1 .f32) (r : Fin 10000) :
    k0_pay2 (F := Ideal) x w (ix2 r (0 : Fin 1)) = Cert.LibDense.prod x w (ix2 r (0 : Fin 1)) := by
  unfold k0_pay2
  rw [shapeCast_self]
  exact Cert.LibDense.matmul_plain x w (ix2 r (0 : Fin 1))

/-- A 1×1 block broadcast down the 10000 rows reads its one entry everywhere. -/
theorem one_bcast_apply (b : Vec Ideal S1x1 .f32) (r : Fin 10000) :
    broadcastTo S10000x1 b broadcasts_S1x1_S10000x1 (ix2 r (0 : Fin 1)) = b (ix2 (0 : Fin 1) (0 : Fin 1)) :=
  broadcastTo_apply b broadcasts_S1x1_S10000x1 (ix2 r (0 : Fin 1)) (ix2 (0 : Fin 1) (0 : Fin 1)) (fun a =>
    match a with
    | ⟨0, _⟩ => (if_pos rfl).symm
    | ⟨1, _⟩ => (if_pos rfl).symm)

/-- Column `k` of the three-column block, sliced out, at row `r`. -/
theorem col0_apply (x0 : Vec Ideal S10000x3 .f32) (r : Fin 10000) :
    extractStridedSlice S10000x1 ![0, 0] x0 slices_S10000x3_o0_0_S10000x1 (ix2 r (0 : Fin 1)) = x0 (ix2 r (0 : Fin 3)) :=
  extractStridedSlice_apply ![0, 0] x0 slices_S10000x3_o0_0_S10000x1 (ix2 r (0 : Fin 1)) (ix2 r (0 : Fin 3)) (fun a =>
    match a with
    | ⟨0, _⟩ => by show r.val = 0 + r.val; omega
    | ⟨1, _⟩ => by show 0 = 0 + 0; rfl)
theorem col1_apply (x0 : Vec Ideal S10000x3 .f32) (r : Fin 10000) :
    extractStridedSlice S10000x1 ![0, 1] x0 slices_S10000x3_o0_1_S10000x1 (ix2 r (0 : Fin 1)) = x0 (ix2 r (1 : Fin 3)) :=
  extractStridedSlice_apply ![0, 1] x0 slices_S10000x3_o0_1_S10000x1 (ix2 r (0 : Fin 1)) (ix2 r (1 : Fin 3)) (fun a =>
    match a with
    | ⟨0, _⟩ => by show r.val = 0 + r.val; omega
    | ⟨1, _⟩ => by show 1 = 1 + 0; rfl)
theorem col2_apply (x0 : Vec Ideal S10000x3 .f32) (r : Fin 10000) :
    extractStridedSlice S10000x1 ![0, 2] x0 slices_S10000x3_o0_2_S10000x1 (ix2 r (0 : Fin 1)) = x0 (ix2 r (2 : Fin 3)) :=
  extractStridedSlice_apply ![0, 2] x0 slices_S10000x3_o0_2_S10000x1 (ix2 r (0 : Fin 1)) (ix2 r (2 : Fin 3)) (fun a =>
    match a with
    | ⟨0, _⟩ => by show r.val = 0 + r.val; omega
    | ⟨1, _⟩ => by show 2 = 2 + 0; rfl)

/-- The leaky rectifier as the body spells it (compare with the zero word, multiply by the slope word, select), at an
    entry. -/
theorem leaky_apply (hv : FVec Ideal S10000x1 .f32) (idx : S10000x1.Idx) :
    select (cmpf .oge hv (broadcast S10000x1 (Scalar.ofBits (F := Ideal) .f32 0x00000000#32))) hv
      (mulf (broadcast S10000x1 (Scalar.ofBits (F := Ideal) .f32 0x3DCCCCCD#32)) hv) idx = Cert.EdgeMlp.leaky (hv idx) := rfl

/-- The second launch's stored value at row `r` of its block. -/
theorem pay1_apply (x0 : Vec Ideal S10000x3 .f32) (x1 : Vec Ideal S10000x8 .f32) (x2 : Vec Ideal S8x1 .f32)
    (x3 x4 x5 : Vec Ideal S1x1 .f32) (r : Fin 10000) :
    k1_pay1 (F := Ideal) x0 x1 x2 x3 x4 x5 (ix2 r (0 : Fin 1))
      = Cert.EdgeMlp.leaky ((((x0 (ix2 r (0 : Fin 3)) + x0 (ix2 r (1 : Fin 3))) + x0 (ix2 r (2 : Fin 3)))
            + Cert.LibDense.prod x1 x2 (ix2 r (0 : Fin 1))) + x3 (ix2 (0 : Fin 1) (0 : Fin 1)))
          * x4 (ix2 (0 : Fin 1) (0 : Fin 1)) + x5 (ix2 (0 : Fin 1) (0 : Fin 1)) := by
  unfold k1_pay1
  simp only [shapeCast_self]
  rw [addf_apply, one_bcast_apply x5 r]
  refine congrArg (· + x5 (ix2 (0 : Fin 1) (0 : Fin 1))) ?_
  refine (Cert.LibDense.matmul_plain _ x4 (ix2 r (0 : Fin 1))).trans ?_
  refine (Fin.sum_univ_one _).trans ?_
  refine congrArg (· * x4 (ix2 (0 : Fin 1) (0 : Fin 1))) ?_
  refine (leaky_apply _ (ix2 r (0 : Fin 1))).trans (congrArg Cert.EdgeMlp.leaky ?_)
  simp only [addf_apply]
  rw [col0_apply, col1_apply, col2_apply, one_bcast_apply x3 r]
  exact congrArg (fun z => (((x0 (ix2 r (0 : Fin 3)) + x0 (ix2 r (1 : Fin 3))) + x0 (ix2 r (2 : Fin 3))) + z) + x3 (ix2 (0 : Fin 1) (0 : Fin 1)))
    (Cert.LibDense.matmul_plain x1 x2 (ix2 r (0 : Fin 1)))

end Cert.KernelIdeal.Hand

end
-- ==== Proof.KI.NodeProj.lean ====
/-
  The node-projection call's two result arrays after its grid has run.

  Grid point `t` writes back, into rows `10000·t … 10000·t + 9999` of each result, the product of those rows of a node
  table with a 64-row weight slice; the ten blocks tile the hundred thousand rows.  So each result array ends as ONE
  function of the table and the slice: entry (n, 0) is row `n` of the table against the slice.
-/
import proofs.«135055_j31748398252727_2_alg».proof.Proof.KI.Region0
import proofs.«135055_j31748398252727_2_alg».proof.Proof.KI.Payload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- A node table projected onto a weight slice: entry (n, 0) is row `n` against the slice. -/
def nodeProj (X : S100000x64.Idx → EReal) (Wc : S64x1.Idx → EReal) : S100000x1.Idx → EReal :=
  fun i => Cert.LibDense.prod X Wc (ix2 (⟨(i 0).val, idx2_lt0 i⟩ : Fin 100000) (0 : Fin 1))

/-- The block indices of the call's six windows at grid point `t`: the tables and the results move with the point
    along the rows, the weight slices stay. -/
theorem idx0_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- One stored block against the whole result: where the block's rows are the table's rows `10000·tv + ·` and the
    block's weight slice is the whole slice, the stored product at block row `y` is the table's projection at array
    row `10000·tv + y`. -/
theorem nodeProj_point (X : S100000x64.Idx → EReal) (Wc : S64x1.Idx → EReal) (xb : Vec Ideal S10000x64 .f32) (wb : Vec Ideal S64x1 .f32)
    (tv : Nat) (hx : ∀ (y : S10000x64.Idx) (k : S100000x64.Idx), (k 0).val = 10000 * tv + (y 0).val → (k 1).val = (y 1).val → xb y = X k)
    (hw : wb = Wc)
    (pay : Vec Ideal S10000x64 .f32 → Vec Ideal S64x1 .f32 → FVec Ideal S10000x1 .f32)
    (hpay : ∀ x w (r : Fin 10000), pay x w (ix2 r (0 : Fin 1)) = Cert.LibDense.prod x w (ix2 r (0 : Fin 1)))
    (y : S10000x1.Idx) (i : S100000x1.Idx) (hi0 : (i 0).val = 10000 * tv + (y 0).val) :
    pay xb wb y = nodeProj X Wc i := by
  obtain ⟨r, q, rfl⟩ : ∃ (r : Fin 10000) (q : Fin 1), y = ix2 r q := ⟨y 0, y 1, eq_ix2 y⟩
  obtain rfl : q = 0 := Subsingleton.elim _ _
  subst hw
  rw [hpay]
  unfold nodeProj Cert.LibDense.prod
  refine Finset.sum_congr rfl fun k _ => ?_
  exact congrArg (· * wb (ix2 k (0 : Fin 1))) (hx (ix2 r k) (ix2 (⟨(i 0).val, idx2_lt0 i⟩ : Fin 100000) k) hi0 rfl)

variable (V : (c : Dev nD) → (b : Ref sig .tc) → Buf (Elt Ideal) ((c : Thread nD τ).loc b))

/-- A table window's block at point `t` is rows `10000·t + ·` of the table. -/
theorem iblk0_tab0 (c : Dev nD) (t : Fin cfg0.N) (y : S10000x64.Idx) (k : S100000x64.Idx)
    (hk0 : (k 0).val = 10000 * t.val + (y 0).val) (hk1 : (k 1).val = (y 1).val) :
    (iblk0 V c 0 t : Vec Ideal S10000x64 .f32) y = (V c main_arg0 : S100000x64.Idx → EReal) k := by
  obtain ⟨e0, e1, -⟩ := idx0_facts t
  unfold iblk0
  rw [View.read_apply]
  show V c main_arg0 _ = V c main_arg0 _
  congr 1
  funext a; apply Fin.ext
  match a with
  | ⟨0, _⟩ => show win0_0.index t (0 : Fin 2) * 10000 + 1 * (y 0).val = (k 0).val; rw [e0, hk0]; omega
  | ⟨1, _⟩ => show win0_0.index t (1 : Fin 2) * 64 + 1 * (y 1).val = (k 1).val; rw [e1, hk1]; omega
theorem iblk0_tab1 (c : Dev nD) (t : Fin cfg0.N) (y : S10000x64.Idx) (k : S100000x64.Idx)
    (hk0 : (k 0).val = 10000 * t.val + (y 0).val) (hk1 : (k 1).val = (y 1).val) :
    (iblk0 V c 1 t : Vec Ideal S10000x64 .f32) y = (V c main_arg1 : S100000x64.Idx → EReal) k := by
  obtain ⟨-, -, e0, e1, -⟩ := idx0_facts t
  unfold iblk0
  rw [View.read_apply]
  show V c main_arg1 _ = V c main_arg1 _
  congr 1
  funext a; apply Fin.ext
  match a with
  | ⟨0, _⟩ => show win0_1.index t (0 : Fin 2) * 10000 + 1 * (y 0).val = (k 0).val; rw [e0, hk0]; omega
  | ⟨1, _⟩ => show win0_1.index t (1 : Fin 2) * 64 + 1 * (y 1).val = (k 1).val; rw [e1, hk1]; omega

/-- A weight-slice window's block at every point is the whole slice. -/
theorem iblk0_wt2 (c : Dev nD) (t : Fin cfg0.N) : (iblk0 V c 2 t : Vec Ideal S64x1 .f32) = (V c main_v0 : S64x1.Idx → EReal) := by
  obtain ⟨-, -, -, -, e0, e1, -⟩ := idx0_facts t
  funext y
  unfold iblk0
  rw [View.read_apply]
  show V c main_v0 _ = V c main_v0 y
  congr 1
  funext a; apply Fin.ext
  match a with
  | ⟨0, _⟩ => show win0_2.index t (0 : Fin 2) * 64 + 1 * (y 0).val = (y 0).val; rw [e0]; omega
  | ⟨1, _⟩ => show win0_2.index t (1 : Fin 2) * 1 + 1 * (y 1).val = (y 1).val; rw [e1]; omega
theorem iblk0_wt3 (c : Dev nD) (t : Fin cfg0.N) : (iblk0 V c 3 t : Vec Ideal S64x1 .f32) = (V c main_v1 : S64x1.Idx → EReal) := by
  obtain ⟨-, -, -, -, -, -, e0, e1, -⟩ := idx0_facts t
  funext y
  unfold iblk0
  rw [View.read_apply]
  show V c main_v1 _ = V c main_v1 y
  congr 1
  funext a; apply Fin.ext
  match a with
  | ⟨0, _⟩ => show win0_3.index t (0 : Fin 2) * 64 + 1 * (y 0).val = (y 0).val; rw [e0]; omega
  | ⟨1, _⟩ => show win0_3.index t (1 : Fin 2) * 1 + 1 * (y 1).val = (y 1).val; rw [e1]; omega

/-- WHAT POINT `t` WRITES BACK into the first result is block `t` of the first table's projection. -/
theorem flushed0_4_eq (c : Dev nD) (t : Fin cfg0.N) :
    (dat0 V c).flushed 4 t = ((cfg0.win 4).blk t).view.read (Elt Ideal) (nodeProj (V c main_arg0) (V c main_v0)) := by
  show (cfg0.win 4).cut (grid0.coords t) ((dat0 V c).after 4 t) = _
  rw [after0_4]
  unfold out0_4
  rw [View.canon_unit_zero hz2]
  simp only [View.ld_unit_zero (S := S10000x64) hz2, View.ld_unit_zero (S := S64x1) hz2]
  obtain ⟨-, -, -, -, -, -, -, -, e0, e1, -⟩ := idx0_facts t
  funext j
  rw [View.read_apply]
  refine nodeProj_point (V c main_arg0) (V c main_v0) (iblk0 V c 0 t) (iblk0 V c 2 t) t.val
    (fun y k h0 h1 => iblk0_tab0 V c t y k h0 h1) (iblk0_wt2 V c t) k0_pay1 pay0_1_apply j _ ?_
  show win0_4.index t (0 : Fin 2) * 10000 + 1 * (j 0).val = 10000 * t.val + (j 0).val
  rw [e0]; omega
/-- And into the second result, block `t` of the second table's projection. -/
theorem flushed0_5_eq (c : Dev nD) (t : Fin cfg0.N) :
    (dat0 V c).flushed 5 t = ((cfg0.win 5).blk t).view.read (Elt Ideal) (nodeProj (V c main_arg1) (V c main_v1)) := by
  show (cfg0.win 5).cut (grid0.coords t) ((dat0 V c).after 5 t) = _
  rw [after0_5]
  unfold out0_5
  rw [View.canon_unit_zero hz2]
  simp only [View.ld_unit_zero (S := S10000x64) hz2, View.ld_unit_zero (S := S64x1) hz2]
  obtain ⟨-, -, -, -, -, -, -, -, -, -, e0, e1⟩ := idx0_facts t
  funext j
  rw [View.read_apply]
  refine nodeProj_point (V c main_arg1) (V c main_v1) (iblk0 V c 1 t) (iblk0 V c 3 t) t.val
    (fun y k h0 h1 => iblk0_tab1 V c t y k h0 h1) (iblk0_wt3 V c t) k0_pay2 pay0_2_apply j _ ?_
  show win0_5.index t (0 : Fin 2) * 10000 + 1 * (j 0).val = 10000 * t.val + (j 0).val
  rw [e0]; omega

/-- An index of a result array is in point `t`'s block iff each coordinate is in the block's range on its axis. -/
theorem mem_blk0_4 (t : Fin cfg0.N) (i : S100000x1.Idx) :
    i ∈ ((cfg0.win 4).blk t).view.set ↔ ∀ a : Fin 2, win0_4.index t a * S10000x1.size a ≤ (i a).val ∧ (i a).val < win0_4.index t a * S10000x1.size a + S10000x1.size a := by
  show i ∈ ((View.whole main_v4_0).slice (win0_4.rect t)).set ↔ _
  rw [View.set_slice_whole, Rect.mem_set_unit]
  exact Iff.rfl
theorem mem_blk0_5 (t : Fin cfg0.N) (i : S100000x1.Idx) :
    i ∈ ((cfg0.win 5).blk t).view.set ↔ ∀ a : Fin 2, win0_5.index t a * S10000x1.size a ≤ (i a).val ∧ (i a).val < win0_5.index t a * S10000x1.size a + S10000x1.size a := by
  show i ∈ ((View.whole main_v4_1).slice (win0_5.rect t)).set ↔ _
  rw [View.set_slice_whole, Rect.mem_set_unit]
  exact Iff.rfl

/-- Row `n` of a result is written back by point `n / 10000`: the ten blocks tile the rows. -/
theorem cover0_4 (i : S100000x1.Idx) : ∃ t : Fin cfg0.N, (cfg0.win 4).flush t = true ∧ i ∈ ((cfg0.win 4).blk t).view.set := by
  have hi0 : (i 0).val < 100000 := (i 0).isLt
  have hi1 : (i 1).val < 1 := (i 1).isLt
  have hN : cfg0.N = 10 := N_0
  refine ⟨⟨(i 0).val / 10000, by rw [hN]; omega⟩, flush0_4 _, ?_⟩
  rw [mem_blk0_4]
  obtain ⟨-, -, -, -, -, -, -, -, e0, e1, -⟩ := idx0_facts ⟨(i 0).val / 10000, by rw [hN]; omega⟩
  intro a
  match a with
  | ⟨0, _⟩ =>
    show win0_4.index _ (0 : Fin 2) * 10000 ≤ (i 0).val ∧ (i 0).val < win0_4.index _ (0 : Fin 2) * 10000 + 10000
    rw [e0]; show (i 0).val / 10000 * 10000 ≤ (i 0).val ∧ (i 0).val < (i 0).val / 10000 * 10000 + 10000; omega
  | ⟨1, _⟩ =>
    show win0_4.index _ (1 : Fin 2) * 1 ≤ (i 1).val ∧ (i 1).val < win0_4.index _ (1 : Fin 2) * 1 + 1
    rw [e1]; omega
theorem cover0_5 (i : S100000x1.Idx) : ∃ t : Fin cfg0.N, (cfg0.win 5).flush t = true ∧ i ∈ ((cfg0.win 5).blk t).view.set := by
  have hi0 : (i 0).val < 100000 := (i 0).isLt
  have hi1 : (i 1).val < 1 := (i 1).isLt
  have hN : cfg0.N = 10 := N_0
  refine ⟨⟨(i 0).val / 10000, by rw [hN]; omega⟩, flush0_5 _, ?_⟩
  rw [mem_blk0_5]
  obtain ⟨-, -, -, -, -, -, -, -, -, -, e0, e1⟩ := idx0_facts ⟨(i 0).val / 10000, by rw [hN]; omega⟩
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 1 ≤ (i 1).val ∧ (i 1).val < win0_5.index _ (1 : Fin 2) * 1 + 1
    rw [e1]; omega

/-- THE FIRST RESULT after the grid: the first table projected onto the first weight slice. -/
theorem final0_4 (c : Dev nD) : (dat0 V c).arrAt 4 cfg0.N = nodeProj (V c main_arg0) (V c main_v0) :=
  (dat0 V c).arrAt_eq_of_cover 4 (nodeProj (V c main_arg0) (V c main_v0)) (fun t _ => flushed0_4_eq V c t) cover0_4
/-- THE SECOND RESULT after the grid: the second table projected onto the second weight slice. -/
theorem final0_5 (c : Dev nD) : (dat0 V c).arrAt 5 cfg0.N = nodeProj (V c main_arg1) (V c main_v1) :=
  (dat0 V c).arrAt_eq_of_cover 5 (nodeProj (V c main_arg1) (V c main_v1)) (fun t _ => flushed0_5_eq V c t) cover0_5

end Cert.KernelIdeal.Hand

end
-- ==== Proof.KI.EdgeVal.lean ====
/-
  The edge-combine call's result array after its grid has run.

  Grid point `t` writes back, into rows `10000·t … 10000·t + 9999` of the result, the edge model's value on those rows
  of the gathered-scalar table and of the edge attributes; the hundred blocks tile the million rows.  So the result
  array ends as ONE function of the call's six input arrays, row by row.
-/
import proofs.«135055_j31748398252727_2_alg».proof.Proof.KI.Region1
import proofs.«135055_j31748398252727_2_alg».proof.Proof.KI.Payload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz2' : (![0, 0] : Fin 2 → Nat) = fun _ => 0 := funext fun a => by fin_cases a <;> rfl

/-- The edge model's value from the gathered per-edge scalars `g : [E, 3]`, the attributes, the attribute weight
    slice and the two biases and the second-layer weight as 1×1 arrays: row `e` is
    `leaky (((g e 0 + g e 1) + g e 2) + ea e · w + b1) · W2 + b2`. -/
def edgeOut (g : S1000000x3.Idx → EReal) (ea : S1000000x8.Idx → EReal) (w : S8x1.Idx → EReal)
    (b1 W2 b2 : S1x1.Idx → EReal) : S1000000x1.Idx → EReal :=
  fun i => Cert.EdgeMlp.leaky ((((g (ix2 (⟨(i 0).val, idx2_lt0 i⟩ : Fin 1000000) (0 : Fin 3)) + g (ix2 (⟨(i 0).val, idx2_lt0 i⟩ : Fin 1000000) (1 : Fin 3)))
          + g (ix2 (⟨(i 0).val, idx2_lt0 i⟩ : Fin 1000000) (2 : Fin 3)))
          + Cert.LibDense.prod ea w (ix2 (⟨(i 0).val, idx2_lt0 i⟩ : Fin 1000000) (0 : Fin 1))) + b1 (ix2 (0 : Fin 1) (0 : Fin 1)))
        * W2 (ix2 (0 : Fin 1) (0 : Fin 1)) + b2 (ix2 (0 : Fin 1) (0 : Fin 1))

/-- The block indices of the call's seven windows at grid point `t`: the two per-edge tables and the result move with
    the point along the rows, the four small operands stay. -/
structure Idx1Facts (t : Fin cfg1.N) : Prop where
  mv0 : win1_0.index t (0 : Fin 2) = t.val ∧ win1_0.index t (1 : Fin 2) = 0
  mv1 : win1_1.index t (0 : Fin 2) = t.val ∧ win1_1.index t (1 : Fin 2) = 0
  st2 : win1_2.index t (0 : Fin 2) = 0 ∧ win1_2.index t (1 : Fin 2) = 0
  st3 : win1_3.index t (0 : Fin 2) = 0 ∧ win1_3.index t (1 : Fin 2) = 0
  st4 : win1_4.index t (0 : Fin 2) = 0 ∧ win1_4.index t (1 : Fin 2) = 0
  st5 : win1_5.index t (0 : Fin 2) = 0 ∧ win1_5.index t (1 : Fin 2) = 0
  mv6 : win1_6.index t (0 : Fin 2) = t.val ∧ win1_6.index t (1 : Fin 2) = 0

theorem idx1_all : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)
theorem idx1_facts (t : Fin cfg1.N) : Idx1Facts t :=
  let ⟨a, b, c, d, e, f, g⟩ := idx1_all t
  ⟨a, b, c, d, e, f, g⟩

/-- One stored block against the whole result: where the block's rows are the arrays' rows `10000·tv + ·` and the
    small operands are whole, the stored value at block row `y` is the edge model's at array row `10000·tv + y`. -/
theorem edge_point (g : S1000000x3.Idx → EReal) (ea : S1000000x8.Idx → EReal) (w : S8x1.Idx → EReal) (b1 W2 b2 : S1x1.Idx → EReal)
    (x0 : Vec Ideal S10000x3 .f32) (x1 : Vec Ideal S10000x8 .f32) (x2 : Vec Ideal S8x1 .f32) (x3 x4 x5 : Vec Ideal S1x1 .f32) (tv : Nat)
    (h0 : ∀ (y : S10000x3.Idx) (k : S1000000x3.Idx), (k 0).val = 10000 * tv + (y 0).val → (k 1).val = (y 1).val → x0 y = g k)
    (h1 : ∀ (y : S10000x8.Idx) (k : S1000000x8.Idx), (k 0).val = 10000 * tv + (y 0).val → (k 1).val = (y 1).val → x1 y = ea k)
    (h2 : x2 = w) (h3 : x3 = b1) (h4 : x4 = W2) (h5 : x5 = b2)
    (y : S10000x1.Idx) (i : S1000000x1.Idx) (hi0 : (i 0).val = 10000 * tv + (y 0).val) :
    k1_pay1 (F := Ideal) x0 x1 x2 x3 x4 x5 y = edgeOut g ea w b1 W2 b2 i := by
  obtain ⟨r, q, rfl⟩ : ∃ (r : Fin 10000) (q : Fin 1), y = ix2 r q := ⟨y 0, y 1, eq_ix2 y⟩
  obtain rfl : q = 0 := Subsingleton.elim _ _
  subst h2; subst h3; subst h4; subst h5
  rw [pay1_apply]
  unfold edgeOut
  have hp : Cert.LibDense.prod x1 x2 (ix2 r (0 : Fin 1)) = Cert.LibDense.prod ea x2 (ix2 (⟨(i 0).val, idx2_lt0 i⟩ : Fin 1000000) (0 : Fin 1)) := by
    unfold Cert.LibDense.prod
    exact Finset.sum_congr rfl fun k _ => congrArg (· * x2 (ix2 k (0 : Fin 1))) (h1 (ix2 r k) (ix2 (⟨(i 0).val, idx2_lt0 i⟩ : Fin 1000000) k) hi0 rfl)
  rw [hp, h0 (ix2 r (0 : Fin 3)) (ix2 (⟨(i 0).val, idx2_lt0 i⟩ : Fin 1000000) (0 : Fin 3)) hi0 rfl,
    h0 (ix2 r (1 : Fin 3)) (ix2 (⟨(i 0).val, idx2_lt0 i⟩ : Fin 1000000) (1 : Fin 3)) hi0 rfl,
    h0 (ix2 r (2 : Fin 3)) (ix2 (⟨(i 0).val, idx2_lt0 i⟩ : Fin 1000000) (2 : Fin 3)) hi0 rfl]

variable (V : (c : Dev nD) → (b : Ref sig .tc) → Buf (Elt Ideal) ((c : Thread nD τ).loc b))

/-- A per-edge table window's block at point `t` is rows `10000·t + ·` of the table. -/
theorem iblk1_mv0 (c : Dev nD) (t : Fin cfg1.N) (y : S10000x3.Idx) (k : S1000000x3.Idx)
    (hk0 : (k 0).val = 10000 * t.val + (y 0).val) (hk1 : (k 1).val = (y 1).val) :
    (iblk1 V c 0 t : Vec Ideal S10000x3 .f32) y = (V c main_v31 : S1000000x3.Idx → EReal) k := by
  have e := idx1_facts t
  unfold iblk1
  rw [View.read_apply]
  show V c main_v31 _ = V c main_v31 _
  congr 1
  funext a; apply Fin.ext
  match a with
  | ⟨0, _⟩ => show win1_0.index t (0 : Fin 2) * 10000 + 1 * (y 0).val = (k 0).val; rw [e.mv0.1, hk0]; omega
  | ⟨1, _⟩ => show win1_0.index t (1 : Fin 2) * 3 + 1 * (y 1).val = (k 1).val; rw [e.mv0.2, hk1]; omega
theorem iblk1_mv1 (c : Dev nD) (t : Fin cfg1.N) (y : S10000x8.Idx) (k : S1000000x8.Idx)
    (hk0 : (k 0).val = 10000 * t.val + (y 0).val) (hk1 : (k 1).val = (y 1).val) :
    (iblk1 V c 1 t : Vec Ideal S10000x8 .f32) y = (V c main_arg2 : S1000000x8.Idx → EReal) k := by
  have e := idx1_facts t
  unfold iblk1
  rw [View.read_apply]
  show V c main_arg2 _ = V c main_arg2 _
  congr 1
  funext a; apply Fin.ext
  match a with
  | ⟨0, _⟩ => show win1_1.index t (0 : Fin 2) * 10000 + 1 * (y 0).val = (k 0).val; rw [e.mv1.1, hk0]; omega
  | ⟨1, _⟩ => show win1_1.index t (1 : Fin 2) * 8 + 1 * (y 1).val = (k 1).val; rw [e.mv1.2, hk1]; omega

/-- A small operand's window's block at every point is the whole operand. -/
theorem iblk1_st2 (c : Dev nD) (t : Fin cfg1.N) : (iblk1 V c 2 t : Vec Ideal S8x1 .f32) = (V c main_v2 : S8x1.Idx → EReal) := by
  have e := idx1_facts t
  funext y
  unfold iblk1
  rw [View.read_apply]
  show V c main_v2 _ = V c main_v2 y
  congr 1
  funext a; apply Fin.ext
  match a with
  | ⟨0, _⟩ => show win1_2.index t (0 : Fin 2) * 8 + 1 * (y 0).val = (y 0).val; rw [e.st2.1]; omega
  | ⟨1, _⟩ => show win1_2.index t (1 : Fin 2) * 1 + 1 * (y 1).val = (y 1).val; rw [e.st2.2]; omega
theorem iblk1_st3 (c : Dev nD) (t : Fin cfg1.N) : (iblk1 V c 3 t : Vec Ideal S1x1 .f32) = (V c main_v32 : S1x1.Idx → EReal) := by
  have e := idx1_facts t
  funext y
  unfold iblk1
  rw [View.read_apply]
  show V c main_v32 _ = V c main_v32 y
  congr 1
  funext a; apply Fin.ext
  match a with
  | ⟨0, _⟩ => show win1_3.index t (0 : Fin 2) * 1 + 1 * (y 0).val = (y 0).val; rw [e.st3.1]; omega
  | ⟨1, _⟩ => show win1_3.index t (1 : Fin 2) * 1 + 1 * (y 1).val = (y 1).val; rw [e.st3.2]; omega
theorem iblk1_st4 (c : Dev nD) (t : Fin cfg1.N) : (iblk1 V c 4 t : Vec Ideal S1x1 .f32) = (V c main_arg8 : S1x1.Idx → EReal) := by
  have e := idx1_facts t
  funext y
  unfold iblk1
  rw [View.read_apply]
  show V c main_arg8 _ = V c main_arg8 y
  congr 1
  funext a; apply Fin.ext
  match a with
  | ⟨0, _⟩ => show win1_4.index t (0 : Fin 2) * 1 + 1 * (y 0).val = (y 0).val; rw [e.st4.1]; omega
  | ⟨1, _⟩ => show win1_4.index t (1 : Fin 2) * 1 + 1 * (y 1).val = (y 1).val; rw [e.st4.2]; omega
theorem iblk1_st5 (c : Dev nD) (t : Fin cfg1.N) : (iblk1 V c 5 t : Vec Ideal S1x1 .f32) = (V c main_v33 : S1x1.Idx → EReal) := by
  have e := idx1_facts t
  funext y
  unfold iblk1
  rw [View.read_apply]
  show V c main_v33 _ = V c main_v33 y
  congr 1
  funext a; apply Fin.ext
  match a with
  | ⟨0, _⟩ => show win1_5.index t (0 : Fin 2) * 1 + 1 * (y 0).val = (y 0).val; rw [e.st5.1]; omega
  | ⟨1, _⟩ => show win1_5.index t (1 : Fin 2) * 1 + 1 * (y 1).val = (y 1).val; rw [e.st5.2]; omega

/-- WHAT POINT `t` WRITES BACK is block `t` of the edge model's value on the call's input arrays. -/
theorem flushed1_6_eq (c : Dev nD) (t : Fin cfg1.N) :
    (dat1 V c).flushed 6 t = ((cfg1.win 6).blk t).view.read (Elt Ideal)
      (edgeOut (V c main_v31) (V c main_arg2) (V c main_v2) (V c main_v32) (V c main_arg8) (V c main_v33)) := by
  show (cfg1.win 6).cut (grid1.coords t) ((dat1 V c).after 6 t) = _
  rw [after1_6]
  unfold out1_6
  rw [View.canon_unit_zero hz2']
  simp only [View.ld_unit_zero (S := S10000x3) hz2', View.ld_unit_zero (S := S10000x8) hz2', View.ld_unit_zero (S := S8x1) hz2', View.ld_unit_zero (S := S1x1) hz2']
  have e := idx1_facts t
  funext j
  rw [View.read_apply]
  refine edge_point (V c main_v31) (V c main_arg2) (V c main_v2) (V c main_v32) (V c main_arg8) (V c main_v33)
    (iblk1 V c 0 t) (iblk1 V c 1 t) (iblk1 V c 2 t) (iblk1 V c 3 t) (iblk1 V c 4 t) (iblk1 V c 5 t) t.val
    (fun y k h0 h1 => iblk1_mv0 V c t y k h0 h1) (fun y k h0 h1 => iblk1_mv1 V c t y k h0 h1)
    (iblk1_st2 V c t) (iblk1_st3 V c t) (iblk1_st4 V c t) (iblk1_st5 V c t) j _ ?_
  show win1_6.index t (0 : Fin 2) * 10000 + 1 * (j 0).val = 10000 * t.val + (j 0).val
  rw [e.mv6.1]; omega

/-- An index of the result array is in point `t`'s block iff each coordinate is in the block's range on its axis. -/
theorem mem_blk1_6 (t : Fin cfg1.N) (i : S1000000x1.Idx) :
    i ∈ ((cfg1.win 6).blk t).view.set ↔ ∀ a : Fin 2, win1_6.index t a * S10000x1.size a ≤ (i a).val ∧ (i a).val < win1_6.index t a * S10000x1.size a + S10000x1.size a := by
  show i ∈ ((View.whole main_v34).slice (win1_6.rect t)).set ↔ _
  rw [View.set_slice_whole, Rect.mem_set_unit]
  exact Iff.rfl

/-- Row `e` of the result is written back by point `e / 10000`: the hundred blocks tile the rows. -/
theorem cover1_6 (i : S1000000x1.Idx) : ∃ t : Fin cfg1.N, (cfg1.win 6).flush t = true ∧ i ∈ ((cfg1.win 6).blk t).view.set := by
  have hi0 : (i 0).val < 1000000 := (i 0).isLt
  have hi1 : (i 1).val < 1 := (i 1).isLt
  have hN : cfg1.N = 100 := N_1
  refine ⟨⟨(i 0).val / 10000, by rw [hN]; omega⟩, flush1_6 _, ?_⟩
  rw [mem_blk1_6]
  have e := idx1_facts ⟨(i 0).val / 10000, by rw [hN]; omega⟩
  intro a
  match a with
  | ⟨0, _⟩ =>
    show win1_6.index _ (0 : Fin 2) * 10000 ≤ (i 0).val ∧ (i 0).val < win1_6.index _ (0 : Fin 2) * 10000 + 10000
    rw [e.mv6.1]; show (i 0).val / 10000 * 10000 ≤ (i 0).val ∧ (i 0).val < (i 0).val / 10000 * 10000 + 10000; omega
  | ⟨1, _⟩ =>
    show win1_6.index _ (1 : Fin 2) * 1 ≤ (i 1).val ∧ (i 1).val < win1_6.index _ (1 : Fin 2) * 1 + 1
    rw [e.mv6.2]; omega

/-- THE RESULT after the grid: the edge model's value on the call's six input arrays. -/
theorem final1_6 (c : Dev nD) : (dat1 V c).arrAt 6 cfg1.N
    = edgeOut (V c main_v31) (V c main_arg2) (V c main_v2) (V c main_v32) (V c main_arg8) (V c main_v33) :=
  (dat1 V c).arrAt_eq_of_cover 6 _ (fun t _ => flushed1_6_eq V c t) cover1_6

end Cert.KernelIdeal.Hand

end
-- ==== Proof.KI.Mid.lean ====
/-
  The host operations between the two launches, read on the extended reals.

  The weight column `W1 : [152, 1]` is cut into the four row ranges 0–63, 64–127, 128–135, 136–151 the four inputs
  meet; a bias `[1]` is laid out as `[1, 1]`; the graph table's product with its 16 weight rows is the row-by-column
  sum; and the three per-node / per-graph products, gathered at each edge's source, target and graph row numbers, are
  laid side by side as the three columns of one `[1000000, 3]` array.  Every statement is an index-by-index reading;
  nothing here needs an entry to be finite.
-/
import proofs.«135055_j31748398252727_2_alg».proof.Proof.Gen.KernelIdeal
import proofs.«135055_j31748398252727_2_alg».proof.Proof.Spec
import Idealize.ShloMosaic.Lib.Pipeline.Value
import Idealize.ShloMosaic.Lib.ValueIdx

noncomputable section

namespace Cert.KernelIdeal.Mid

open Cert.KernelIdeal Cert.KernelIdeal.Gen Idealize.ShloMosaic Idealize.ShloMosaic.ValueIdx

/-! ## The four row ranges of the weight column -/

/-- Rows 0–63 of the weight column. -/
theorem wslice_h (W1 : S152x1.Idx → EReal) :
    extractStridedSlice S64x1 ![0, 0] W1 slices_S152x1_S64x1_0_0 = Cert.EdgeMlp.wcol W1 0 64 (by omega) := by
  funext j
  exact extractStridedSlice_apply ![0, 0] W1 slices_S152x1_S64x1_0_0 j
    (ix2 (⟨0 + (j 0).val, by have := idx2_lt0 j; omega⟩ : Fin 152) (0 : Fin 1)) (fun a => by
      match a with
      | ⟨0, _⟩ => rfl
      | ⟨1, _⟩ => show 0 = 0 + (j 1).val; have := idx2_lt1 j; omega)

/-- Rows 64–127. -/
theorem wslice_g (W1 : S152x1.Idx → EReal) :
    extractStridedSlice S64x1 ![64, 0] W1 slices_S152x1_S64x1_64_0 = Cert.EdgeMlp.wcol W1 64 64 (by omega) := by
  funext j
  exact extractStridedSlice_apply ![64, 0] W1 slices_S152x1_S64x1_64_0 j
    (ix2 (⟨64 + (j 0).val, by have := idx2_lt0 j; omega⟩ : Fin 152) (0 : Fin 1)) (fun a => by
      match a with
      | ⟨0, _⟩ => rfl
      | ⟨1, _⟩ => show 0 = 0 + (j 1).val; have := idx2_lt1 j; omega)

/-- Rows 128–135. -/
theorem wslice_x (W1 : S152x1.Idx → EReal) :
    extractStridedSlice S8x1 ![128, 0] W1 slices_S152x1_S8x1_128_0 = Cert.EdgeMlp.wcol W1 128 8 (by omega) := by
  funext j
  exact extractStridedSlice_apply ![128, 0] W1 slices_S152x1_S8x1_128_0 j
    (ix2 (⟨128 + (j 0).val, by have := idx2_lt0 j; omega⟩ : Fin 152) (0 : Fin 1)) (fun a => by
      match a with
      | ⟨0, _⟩ => rfl
      | ⟨1, _⟩ => show 0 = 0 + (j 1).val; have := idx2_lt1 j; omega)

/-- Rows 136–151. -/
theorem wslice_u (W1 : S152x1.Idx → EReal) :
    extractStridedSlice S16x1 ![136, 0] W1 slices_S152x1_S16x1_136_0 = Cert.EdgeMlp.wcol W1 136 16 (by omega) := by
  funext j
  exact extractStridedSlice_apply ![136, 0] W1 slices_S152x1_S16x1_136_0 j
    (ix2 (⟨136 + (j 0).val, by have := idx2_lt0 j; omega⟩ : Fin 152) (0 : Fin 1)) (fun a => by
      match a with
      | ⟨0, _⟩ => rfl
      | ⟨1, _⟩ => show 0 = 0 + (j 1).val; have := idx2_lt1 j; omega)

/-! ## A bias laid out as a 1×1 array -/

/-- The one entry of a bias `[1]` laid out as `[1, 1]`. -/
theorem bias_cast (b : S1.Idx → EReal) :
    shapeCast S1x1 b shapeCasts_S1_S1x1 (ix2 (0 : Fin 1) (0 : Fin 1)) = b (ix1 (0 : Fin 1)) := by
  refine (shapeCast_addUnit_apply ![1] b shapeCasts_S1_S1x1 _).trans (congrArg b (funext fun a => ?_))
  match a with
  | ⟨0, _⟩ => rfl

/-! ## The graph table's product -/

/-- The product of the graph table `[64, 16]` with its 16 weight rows is the row-by-column sum. -/
theorem pu_eq (u : S64x16.Idx → EReal) (w : S16x1.Idx → EReal) :
    Host.dotGeneral (F := Ideal) (φ₁ := .f32) (φ₂ := .f32) dot_S64x16_S16x1_S64x1_1_0_0_1_n_n none u w = Cert.LibDense.prod u w := by
  funext i
  exact Cert.LibDense.dotGeneral_plain (M := 64) (K := 16) (N := 1) .single u w i

/-! ## The three gathered products side by side -/

/-- The per-node products at each edge's source and target rows and the per-graph product at its graph row, as the
    three columns of one array. -/
def gath (ph pg : S100000x1.Idx → EReal) (pu : S64x1.Idx → EReal) (iS iT iB : IVec S1000000x1 32) : S1000000x3.Idx → EReal :=
  concatenate S1000000x3 1 [⟨S1000000x1, Host.gather gather_S100000x1_S1000000x1_S1000000x1_1_0_n_n_0_1_11 ph iS⟩, ⟨S1000000x1, Host.gather gather_S100000x1_S1000000x1_S1000000x1_1_0_n_n_0_1_11 pg iT⟩, ⟨S1000000x1, Host.gather gather_S64x1_S1000000x1_S1000000x1_1_0_n_n_0_1_11 pu iB⟩] concatenates_S1000000x1_S1000000x1_S1000000x1_S1000000x3_d1

section
variable (ph pg : S100000x1.Idx → EReal) (pu : S64x1.Idx → EReal) (iS iT iB : IVec S1000000x1 32)

/-- The three pieces laid side by side. -/
abbrev cols : List ((s : Shape) × (s.Idx → EReal)) :=
  [⟨S1000000x1, Host.gather gather_S100000x1_S1000000x1_S1000000x1_1_0_n_n_0_1_11 ph iS⟩,
    ⟨S1000000x1, Host.gather gather_S100000x1_S1000000x1_S1000000x1_1_0_n_n_0_1_11 pg iT⟩,
    ⟨S1000000x1, Host.gather gather_S64x1_S1000000x1_S1000000x1_1_0_n_n_0_1_11 pu iB⟩]

/-- Column 0 at edge `e`: the source-side product at the clamped source row. -/
theorem gath_col0 (e : Fin 1000000) :
    gath ph pg pu iS iT iB (ix2 e (0 : Fin 3))
      = ph (ix2 (Cert.Lib.Rows.rowOf 100000 (by omega) (iS (ix2 e (0 : Fin 1)))) (0 : Fin 1)) := by
  rw [← Cert.Lib.Rows.gatherRows_apply (N := 100000) (E := 1000000) (C := 1) (by omega)
    gather_S100000x1_S1000000x1_S1000000x1_1_0_n_n_0_1_11_wf ph iS e (0 : Fin 1)]
  unfold gath
  refine concatenate_apply_piece (t := S1000000x3) (1 : Fin 2) (cols ph pg pu iS iT iB)
    concatenates_S1000000x1_S1000000x1_S1000000x1_S1000000x3_d1 _ 0 (by show 0 < 3; omega) S1000000x1
    (Host.gather gather_S100000x1_S1000000x1_S1000000x1_1_0_n_n_0_1_11 ph iS) rfl rfl 0 rfl
    (ix2 e (0 : Fin 1)) (fun b hb => ?_) rfl
  match b with
  | ⟨0, _⟩ => rfl
  | ⟨1, _⟩ => exact absurd rfl hb

/-- Column 1 at edge `e`: the target-side product at the clamped target row. -/
theorem gath_col1 (e : Fin 1000000) :
    gath ph pg pu iS iT iB (ix2 e (1 : Fin 3))
      = pg (ix2 (Cert.Lib.Rows.rowOf 100000 (by omega) (iT (ix2 e (0 : Fin 1)))) (0 : Fin 1)) := by
  rw [← Cert.Lib.Rows.gatherRows_apply (N := 100000) (E := 1000000) (C := 1) (by omega)
    gather_S100000x1_S1000000x1_S1000000x1_1_0_n_n_0_1_11_wf pg iT e (0 : Fin 1)]
  unfold gath
  refine concatenate_apply_piece (t := S1000000x3) (1 : Fin 2) (cols ph pg pu iS iT iB)
    concatenates_S1000000x1_S1000000x1_S1000000x1_S1000000x3_d1 _ 1 (by show 1 < 3; omega) S1000000x1
    (Host.gather gather_S100000x1_S1000000x1_S1000000x1_1_0_n_n_0_1_11 pg iT) rfl rfl 1 rfl
    (ix2 e (0 : Fin 1)) (fun b hb => ?_) rfl
  match b with
  | ⟨0, _⟩ => rfl
  | ⟨1, _⟩ => exact absurd rfl hb

/-- Column 2 at edge `e`: the graph-side product at the clamped graph row. -/
theorem gath_col2 (e : Fin 1000000) :
    gath ph pg pu iS iT iB (ix2 e (2 : Fin 3))
      = pu (ix2 (Cert.Lib.Rows.rowOf 64 (by omega) (iB (ix2 e (0 : Fin 1)))) (0 : Fin 1)) := by
  rw [← Cert.Lib.Rows.gatherRows_apply (N := 64) (E := 1000000) (C := 1) (by omega)
    gather_S64x1_S1000000x1_S1000000x1_1_0_n_n_0_1_11_wf pu iB e (0 : Fin 1)]
  unfold gath
  refine concatenate_apply_piece (t := S1000000x3) (1 : Fin 2) (cols ph pg pu iS iT iB)
    concatenates_S1000000x1_S1000000x1_S1000000x1_S1000000x3_d1 _ 2 (by show 2 < 3; omega) S1000000x1
    (Host.gather gather_S64x1_S1000000x1_S1000000x1_1_0_n_n_0_1_11 pu iB) rfl rfl 2 rfl
    (ix2 e (0 : Fin 1)) (fun b hb => ?_) rfl
  match b with
  | ⟨0, _⟩ => rfl
  | ⟨1, _⟩ => exact absurd rfl hb

end

end Cert.KernelIdeal.Mid

end
-- ==== Proof.KI.Value.lean ====
/-
  The idealized program's result array as one function of its ten arguments.

  Read along the run: the four weight slices are rows of the weight column; the first launch leaves the two node tables
  projected onto their slices; the host operations in between project the graph table onto its slice, turn the edge
  list and the graph numbers into row numbers, gather one scalar per edge from each of the three projected tables and
  lay them side by side; the second launch leaves the edge model's value on those scalars, the edge attributes, the
  attribute slice, the biases and the second-layer weight.  Unfolding the names, that is the specification `G`.
-/
import proofs.«135055_j31748398252727_2_alg».proof.Proof.KI.Run
import proofs.«135055_j31748398252727_2_alg».proof.Proof.KI.NodeProj
import proofs.«135055_j31748398252727_2_alg».proof.Proof.KI.EdgeVal
import proofs.«135055_j31748398252727_2_alg».proof.Proof.KI.Mid
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Cert.EdgeMlp Cert.KernelIdeal.Mid

variable (m : (ℓ : Loc nD τ sig) → Buf (Elt Ideal) ℓ)

/-- A buffer neither launch's results nor the first host stretch writes holds its launch contents when the second
    stretch starts. -/
theorem V2_kept (c : Dev nD) (r : Ref sig .tc) (h1 : r ∉ ([main_v4_0, main_v4_1] : List (Ref sig .tc))) (h0 : r ∉ Gen.hostOps0_W) :
    Gen.V2 m (outsA m) c r = m ((c : Thread nD τ).loc r) :=
  (Gen.V2_of m (outsA m) c r h1).trans ((Gen.V1_of m c r h0).trans rfl)

/-- The four weight slices after the first host stretch. -/
theorem V1_v0 (c : Dev nD) : (Gen.V1 m c main_v0 : S64x1.Idx → EReal) = wcol (m ((c : Thread nD τ).loc main_arg6)) 0 64 (by omega) := by
  rw [← wslice_h]
  dsimp only [Gen.V1, Gen.V0, hostOps0]; after_results
theorem V1_v1 (c : Dev nD) : (Gen.V1 m c main_v1 : S64x1.Idx → EReal) = wcol (m ((c : Thread nD τ).loc main_arg6)) 64 64 (by omega) := by
  rw [← wslice_g]
  dsimp only [Gen.V1, Gen.V0, hostOps0]; after_results
theorem V1_v2 (c : Dev nD) : (Gen.V1 m c main_v2 : S8x1.Idx → EReal) = wcol (m ((c : Thread nD τ).loc main_arg6)) 128 8 (by omega) := by
  rw [← wslice_x]
  dsimp only [Gen.V1, Gen.V0, hostOps0]; after_results
theorem V1_v3 (c : Dev nD) : (Gen.V1 m c main_v3 : S16x1.Idx → EReal) = wcol (m ((c : Thread nD τ).loc main_arg6)) 136 16 (by omega) := by
  rw [← wslice_u]
  dsimp only [Gen.V1, Gen.V0, hostOps0]; after_results

/-- The first launch's results: the node tables projected onto their weight slices. -/
theorem V2_ph (c : Dev nD) : (Gen.V2 m (outsA m) c main_v4_0 : S100000x1.Idx → EReal)
    = nodeProj (m ((c : Thread nD τ).loc main_arg0)) (wcol (m ((c : Thread nD τ).loc main_arg6)) 0 64 (by omega)) := by
  rw [V2_v4_0, final0_4 (E0 m) c]
  show nodeProj (Gen.V1 m c main_arg0) (Gen.V1 m c main_v0) = _
  rw [V1_v0, Gen.V1_of m c main_arg0 (by decide)]
theorem V2_pg (c : Dev nD) : (Gen.V2 m (outsA m) c main_v4_1 : S100000x1.Idx → EReal)
    = nodeProj (m ((c : Thread nD τ).loc main_arg1)) (wcol (m ((c : Thread nD τ).loc main_arg6)) 64 64 (by omega)) := by
  rw [V2_v4_1, final0_5 (E0 m) c]
  show nodeProj (Gen.V1 m c main_arg1) (Gen.V1 m c main_v1) = _
  rw [V1_v1, Gen.V1_of m c main_arg1 (by decide)]

set_option maxHeartbeats 1000000 in
/-- The thirty-five host operations between the launches, from any contents `W`, leave in the gathered-scalar table
    the three per-edge gathers laid side by side. -/
theorem mid_v31 (W : Valuation τ sig (Elt Ideal)) : (StableHlo.after (hostOps1 (F := Ideal)) W (Proc.devRef .tc main_v31) : S1000000x3.Idx → EReal)
    = gath (W main_v4_0) (W main_v4_1)
        (Host.dotGeneral (F := Ideal) (φ₁ := .f32) (φ₂ := .f32) dot_S64x16_S16x1_S64x1_1_0_0_1_n_n none (W main_arg3) (W main_v3))
        (srcRows (W main_arg4)) (tgtRows (W main_arg4)) (batRows (W main_arg5)) := by
  dsimp only [hostOps1]; after_results; rfl

/-- The gathered-scalar table the second launch reads. -/
theorem V3_v31 (c : Dev nD) : (Gen.V3 m (outsA m) c main_v31 : S1000000x3.Idx → EReal)
    = gath (Gen.V2 m (outsA m) c main_v4_0) (Gen.V2 m (outsA m) c main_v4_1)
        (Host.dotGeneral (F := Ideal) (φ₁ := .f32) (φ₂ := .f32) dot_S64x16_S16x1_S64x1_1_0_0_1_n_n none (Gen.V2 m (outsA m) c main_arg3) (Gen.V2 m (outsA m) c main_v3))
        (srcRows (Gen.V2 m (outsA m) c main_arg4)) (tgtRows (Gen.V2 m (outsA m) c main_arg4)) (batRows (Gen.V2 m (outsA m) c main_arg5)) :=
  mid_v31 (Gen.V2 m (outsA m) c)
/-- The two biases as 1×1 arrays. -/
theorem V3_v32 (c : Dev nD) : (Gen.V3 m (outsA m) c main_v32 : S1x1.Idx → EReal) = shapeCast S1x1 (Gen.V2 m (outsA m) c main_arg7) shapeCasts_S1_S1x1 := by
  dsimp only [Gen.V3, hostOps1]; after_results; rfl
theorem V3_v33 (c : Dev nD) : (Gen.V3 m (outsA m) c main_v33 : S1x1.Idx → EReal) = shapeCast S1x1 (Gen.V2 m (outsA m) c main_arg9) shapeCasts_S1_S1x1 := by
  dsimp only [Gen.V3, hostOps1]; after_results; rfl

/-- THE RESULT ARRAY after the run is the specification of the ten arguments. -/
theorem kernel_val (c : Dev nD) : (Gen.V4 m (outs m) c main_v34 : S1000000x1.Idx → EReal)
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  rw [V4_v34, final1_6 (E1 m) c]
  show edgeOut (Gen.V3 m (outsA m) c main_v31) (Gen.V3 m (outsA m) c main_arg2) (Gen.V3 m (outsA m) c main_v2)
      (Gen.V3 m (outsA m) c main_v32) (Gen.V3 m (outsA m) c main_arg8) (Gen.V3 m (outsA m) c main_v33) = _
  rw [V3_v31, V3_v32, V3_v33, Gen.V3_of m (outsA m) c main_arg2 (by decide), Gen.V3_of m (outsA m) c main_v2 (by decide),
    Gen.V3_of m (outsA m) c main_arg8 (by decide),
    V2_ph, V2_pg, V2_kept m c main_arg2 (by decide) (by decide), V2_kept m c main_arg3 (by decide) (by decide),
    V2_kept m c main_arg4 (by decide) (by decide), V2_kept m c main_arg5 (by decide) (by decide),
    V2_kept m c main_arg7 (by decide) (by decide), V2_kept m c main_arg8 (by decide) (by decide),
    V2_kept m c main_arg9 (by decide) (by decide),
    Gen.V2_of m (outsA m) c main_v2 (by decide), Gen.V2_of m (outsA m) c main_v3 (by decide), V1_v2, V1_v3, pu_eq]
  funext i
  unfold edgeOut G pre
  rw [gath_col0, gath_col1, gath_col2, bias_cast, bias_cast]
  rfl

end Cert.KernelIdeal.Hand

end
-- ==== Proof.RefIsG.lean ====
/-
  The reference program's result is the edge model `G`.

  For edge `e` the reference lays the four row pieces `x_h[src e]`, `x_g[tgt e]`, `edge_attr[e]`, `u[bat e]` end to end
  into one row of 152 entries and takes its product with the weight column: a sum of 152 terms.  `G` takes the four
  partial sums over the pieces' own ranges (0–63, 64–127, 136–151, 128–135) and adds them in that order.  A sum over
  `Fin 152` splits into consecutive ranges, and addition on the extended reals is commutative and associative, so the
  two agree; nothing here needs an entry to be finite.  The rest (bias, leaky rectifier, the 1×1 second layer, bias) is
  the same expression on both sides.
-/
import proofs.«135055_j31748398252727_2_alg».proof.Proof.Gen.ReferenceIdeal.Read
import proofs.«135055_j31748398252727_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Cert.Lib.Rows Cert.EdgeMlp

/-! ## A sum of 152 terms by its four ranges -/

/-- A sum over `Fin (a + b)` is the sum over the first `a` indices plus the sum over the last `b`. -/
theorem sum_range_add {M : Type} [AddCommMonoid M] (a b n : Nat) (hn : a + b = n) (f : Fin n → M) :
    ∑ q : Fin n, f q = ∑ k : Fin a, f ⟨k.val, by omega⟩ + ∑ k : Fin b, f ⟨a + k.val, by omega⟩ := by
  subst hn
  exact Fin.sum_univ_add f

/-- The 152 terms in the order `G` adds them: ranges 0–63 and 64–127, then 136–151, then 128–135. -/
theorem sum_four {M : Type} [AddCommMonoid M] (f : Fin 152 → M) :
    ∑ q : Fin 152, f q
      = ((∑ k : Fin 64, f ⟨0 + k.val, by omega⟩ + ∑ k : Fin 64, f ⟨64 + k.val, by omega⟩)
          + ∑ k : Fin 16, f ⟨136 + k.val, by omega⟩) + ∑ k : Fin 8, f ⟨128 + k.val, by omega⟩ := by
  rw [sum_range_add 136 16 152 rfl f, sum_range_add 128 8 136 rfl (fun q : Fin 136 => f ⟨q.val, by omega⟩),
    sum_range_add 64 64 128 rfl (fun q : Fin 128 => f ⟨q.val, by omega⟩)]
  have e0 : ∀ k : Fin 64, (⟨k.val, by omega⟩ : Fin 152) = ⟨0 + k.val, by omega⟩ := fun k => Fin.ext (Nat.zero_add _).symm
  simp only [e0]
  exact add_right_comm _ _ _

/-! ## The row numbers are the specification's -/

section
variable (x0 x1 : (⟨S100000x64, .f32⟩ : BufTy).Contents (Elt Ideal)) (x2 : (⟨S1000000x8, .f32⟩ : BufTy).Contents (Elt Ideal))
  (x3 : (⟨S64x16, .f32⟩ : BufTy).Contents (Elt Ideal)) (x4 : (⟨S2x1000000, .i32⟩ : BufTy).Contents (Elt Ideal))
  (x5 : (⟨S1000000, .i32⟩ : BufTy).Contents (Elt Ideal)) (x6 : (⟨S152x1, .f32⟩ : BufTy).Contents (Elt Ideal))
  (x7 : (⟨S1, .f32⟩ : BufTy).Contents (Elt Ideal)) (x8 : (⟨S1x1, .f32⟩ : BufTy).Contents (Elt Ideal))
  (x9 : (⟨S1, .f32⟩ : BufTy).Contents (Elt Ideal))

/-- The source row numbers the reference gathers at are `srcRows`: the same operations over the same shapes. -/
theorem src_rows : val_main_v9 (F := Ideal) x4 = srcRows x4 := rfl

/-- The target row numbers likewise. -/
theorem tgt_rows : val_main_v16 (F := Ideal) x4 = tgtRows x4 := rfl

/-- The graph row numbers likewise. -/
theorem bat_rows : val_main_v23 (F := Ideal) x5 = batRows x5 := rfl

/-! ## The three gathers at an index -/

/-- `x_h[src]` at edge `e`, column `k`. -/
theorem gather_src (e : Fin 1000000) (k : Fin 64) :
    val_main_v10 (F := Ideal) x0 x4 (ix2 e k)
      = x0 (ix2 (rowOf 100000 (by omega) (srcRows x4 (ix2 e (0 : Fin 1)))) k) := by
  rw [← src_rows]
  exact gatherRows_apply (N := 100000) (E := 1000000) (C := 64) (by omega)
    gather_S100000x64_S1000000x1_S1000000x64_1_0_n_n_0_1_164_wf x0 (val_main_v9 (F := Ideal) x4) e k

/-- `x_g[tgt]` at edge `e`, column `k`. -/
theorem gather_tgt (e : Fin 1000000) (k : Fin 64) :
    val_main_v17 (F := Ideal) x1 x4 (ix2 e k)
      = x1 (ix2 (rowOf 100000 (by omega) (tgtRows x4 (ix2 e (0 : Fin 1)))) k) := by
  rw [← tgt_rows]
  exact gatherRows_apply (N := 100000) (E := 1000000) (C := 64) (by omega)
    gather_S100000x64_S1000000x1_S1000000x64_1_0_n_n_0_1_164_wf x1 (val_main_v16 (F := Ideal) x4) e k

/-- `u[bat]` at edge `e`, column `k`. -/
theorem gather_bat (e : Fin 1000000) (k : Fin 16) :
    val_main_v24 (F := Ideal) x3 x5 (ix2 e k)
      = x3 (ix2 (rowOf 64 (by omega) (batRows x5 (ix2 e (0 : Fin 1)))) k) := by
  rw [← bat_rows]
  exact gatherRows_apply (N := 64) (E := 1000000) (C := 16) (by omega)
    gather_S64x16_S1000000x1_S1000000x16_1_0_n_n_0_1_116_wf x3 (val_main_v23 (F := Ideal) x5) e k

end

/-! ## The joined row at an index -/

section
variable (x0 x1 : (⟨S100000x64, .f32⟩ : BufTy).Contents (Elt Ideal)) (x2 : (⟨S1000000x8, .f32⟩ : BufTy).Contents (Elt Ideal))
  (x3 : (⟨S64x16, .f32⟩ : BufTy).Contents (Elt Ideal)) (x4 : (⟨S2x1000000, .i32⟩ : BufTy).Contents (Elt Ideal))
  (x5 : (⟨S1000000, .i32⟩ : BufTy).Contents (Elt Ideal))

/-- The four pieces the reference joins along the columns. -/
abbrev pieces : List ((s : Shape) × (s.Idx → EReal)) :=
  [⟨S1000000x64, val_main_v10 (F := Ideal) x0 x4⟩, ⟨S1000000x64, val_main_v17 (F := Ideal) x1 x4⟩, ⟨S1000000x8, x2⟩,
    ⟨S1000000x16, val_main_v24 (F := Ideal) x3 x5⟩]

/-- Entries 0–63 of edge `e`'s joined row are `x_h[src e]`. -/
theorem feat_src (e : Fin 1000000) (k : Fin 64) :
    val_main_v25 (F := Ideal) x0 x1 x2 x3 x4 x5 (ix2 e (⟨0 + k.val, by omega⟩ : Fin 152))
      = x0 (ix2 (rowOf 100000 (by omega) (srcRows x4 (ix2 e (0 : Fin 1)))) k) := by
  rw [← gather_src x0 x4 e k]
  unfold val_main_v25
  refine concatenate_apply_piece (t := S1000000x152) (1 : Fin 2) (pieces x0 x1 x2 x3 x4 x5)
    concatenates_S1000000x64_S1000000x64_S1000000x8_S1000000x16_S1000000x152_d1 _ 0 (by show 0 < 4; omega) S1000000x64 (val_main_v10 (F := Ideal) x0 x4) rfl rfl 0 rfl
    (ix2 e k) (fun b hb => ?_) ?_
  · match b with
    | ⟨0, _⟩ => rfl
    | ⟨1, _⟩ => exact absurd rfl hb
  · show 0 + k.val = 0 + k.val
    rfl

/-- Entries 64–127 are `x_g[tgt e]`. -/
theorem feat_tgt (e : Fin 1000000) (k : Fin 64) :
    val_main_v25 (F := Ideal) x0 x1 x2 x3 x4 x5 (ix2 e (⟨64 + k.val, by omega⟩ : Fin 152))
      = x1 (ix2 (rowOf 100000 (by omega) (tgtRows x4 (ix2 e (0 : Fin 1)))) k) := by
  rw [← gather_tgt x1 x4 e k]
  unfold val_main_v25
  refine concatenate_apply_piece (t := S1000000x152) (1 : Fin 2) (pieces x0 x1 x2 x3 x4 x5)
    concatenates_S1000000x64_S1000000x64_S1000000x8_S1000000x16_S1000000x152_d1 _ 1 (by show 1 < 4; omega) S1000000x64 (val_main_v17 (F := Ideal) x1 x4) rfl rfl 64 rfl
    (ix2 e k) (fun b hb => ?_) ?_
  · match b with
    | ⟨0, _⟩ => rfl
    | ⟨1, _⟩ => exact absurd rfl hb
  · show 64 + k.val = 64 + k.val
    rfl

/-- Entries 128–135 are `edge_attr[e]`. -/
theorem feat_attr (e : Fin 1000000) (k : Fin 8) :
    val_main_v25 (F := Ideal) x0 x1 x2 x3 x4 x5 (ix2 e (⟨128 + k.val, by omega⟩ : Fin 152)) = x2 (ix2 e k) := by
  unfold val_main_v25
  refine concatenate_apply_piece (t := S1000000x152) (1 : Fin 2) (pieces x0 x1 x2 x3 x4 x5)
    concatenates_S1000000x64_S1000000x64_S1000000x8_S1000000x16_S1000000x152_d1 _ 2 (by show 2 < 4; omega) S1000000x8 x2 rfl rfl 128 rfl
    (ix2 e k) (fun b hb => ?_) ?_
  · match b with
    | ⟨0, _⟩ => rfl
    | ⟨1, _⟩ => exact absurd rfl hb
  · show 128 + k.val = 128 + k.val
    rfl

/-- Entries 136–151 are `u[bat e]`. -/
theorem feat_bat (e : Fin 1000000) (k : Fin 16) :
    val_main_v25 (F := Ideal) x0 x1 x2 x3 x4 x5 (ix2 e (⟨136 + k.val, by omega⟩ : Fin 152))
      = x3 (ix2 (rowOf 64 (by omega) (batRows x5 (ix2 e (0 : Fin 1)))) k) := by
  rw [← gather_bat x3 x5 e k]
  unfold val_main_v25
  refine concatenate_apply_piece (t := S1000000x152) (1 : Fin 2) (pieces x0 x1 x2 x3 x4 x5)
    concatenates_S1000000x64_S1000000x64_S1000000x8_S1000000x16_S1000000x152_d1 _ 3 (by show 3 < 4; omega) S1000000x16 (val_main_v24 (F := Ideal) x3 x5) rfl rfl 136 rfl
    (ix2 e k) (fun b hb => ?_) ?_
  · match b with
    | ⟨0, _⟩ => rfl
    | ⟨1, _⟩ => exact absurd rfl hb
  · show 136 + k.val = 136 + k.val
    rfl

end

/-! ## The reference is `G` -/

section
variable (x0 x1 : (⟨S100000x64, .f32⟩ : BufTy).Contents (Elt Ideal)) (x2 : (⟨S1000000x8, .f32⟩ : BufTy).Contents (Elt Ideal))
  (x3 : (⟨S64x16, .f32⟩ : BufTy).Contents (Elt Ideal)) (x4 : (⟨S2x1000000, .i32⟩ : BufTy).Contents (Elt Ideal))
  (x5 : (⟨S1000000, .i32⟩ : BufTy).Contents (Elt Ideal)) (x6 : (⟨S152x1, .f32⟩ : BufTy).Contents (Elt Ideal))
  (x7 : (⟨S1, .f32⟩ : BufTy).Contents (Elt Ideal)) (x8 : (⟨S1x1, .f32⟩ : BufTy).Contents (Elt Ideal))
  (x9 : (⟨S1, .f32⟩ : BufTy).Contents (Elt Ideal))

/-- The first layer's product at edge `e`: the 152-term sum is the four partial sums, in the order `G` adds them. -/
theorem hidden (e : Fin 1000000) :
    val_main_v26 (F := Ideal) x0 x1 x2 x3 x4 x5 x6 (ix2 e (0 : Fin 1))
      = ((Cert.LibDense.prod x0 (wcol x6 0 64 (by omega)) (ix2 (rowOf 100000 (by omega) (srcRows x4 (ix2 e (0 : Fin 1)))) (0 : Fin 1))
          + Cert.LibDense.prod x1 (wcol x6 64 64 (by omega)) (ix2 (rowOf 100000 (by omega) (tgtRows x4 (ix2 e (0 : Fin 1)))) (0 : Fin 1)))
          + Cert.LibDense.prod x3 (wcol x6 136 16 (by omega)) (ix2 (rowOf 64 (by omega) (batRows x5 (ix2 e (0 : Fin 1)))) (0 : Fin 1)))
        + Cert.LibDense.prod x2 (wcol x6 128 8 (by omega)) (ix2 e (0 : Fin 1)) := by
  rw [val_main_v26_apply]
  have hl : ∀ q : Fin 152, lidx_main_v26 (ix2 e (0 : Fin 1)) q = ix2 e q := fun q => funext fun a => by
    match a with
    | ⟨0, _⟩ => rfl
    | ⟨1, _⟩ => rfl
  have hr : ∀ q : Fin 152, ridx_main_v26 (ix2 e (0 : Fin 1)) q = ix2 q (0 : Fin 1) := fun q => funext fun a => by
    match a with
    | ⟨0, _⟩ => rfl
    | ⟨1, _⟩ => rfl
  simp only [hl, hr]
  rw [sum_four (fun q : Fin 152 => val_main_v25 (F := Ideal) x0 x1 x2 x3 x4 x5 (ix2 e q) * x6 (ix2 q (0 : Fin 1)))]
  simp only [feat_src, feat_tgt, feat_attr, feat_bat]
  rfl

/-- The hidden value before the activation. -/
theorem hidden_bias (e : Fin 1000000) :
    val_main_v29 (F := Ideal) x0 x1 x2 x3 x4 x5 x6 x7 (ix2 e (0 : Fin 1)) = pre x0 x1 x2 x3 x4 x5 x6 x7 e := by
  have i27 : idx_main_v27 (idx_main_v28 (ix2 e (0 : Fin 1))) = ix1 (0 : Fin 1) := funext fun a => by
    match a with
    | ⟨0, _⟩ => rfl
  rw [val_main_v29_apply, val_main_v28_apply, val_main_v27_apply, i27, hidden]
  rfl

/-- The activated hidden value. -/
theorem activated (e : Fin 1000000) :
    val_main_v34 (F := Ideal) x0 x1 x2 x3 x4 x5 x6 x7 (ix2 e (0 : Fin 1)) = leaky (pre x0 x1 x2 x3 x4 x5 x6 x7 e) := by
  rw [val_main_v34_apply, val_main_v31_apply, val_main_v33_apply, val_main_v30_apply, val_main_v32_apply, hidden_bias]
  rfl

/-- THE REFERENCE'S RESULT IS `G`. -/
theorem ref_eq :
    val_main_v38 (F := Ideal) x0 x1 x2 x3 x4 x5 x6 x7 x8 x9 = G x0 x1 x2 x3 x4 x5 x6 x7 x8 x9 := by
  funext j
  obtain ⟨e, rfl⟩ : ∃ e : Fin 1000000, j = ix2 e (0 : Fin 1) :=
    ⟨j 0, (eq_ix2 j).trans (congrArg (ix2 (j 0)) (Fin.ext (by have := idx2_lt1 j; show (j 1).val = 0; omega)))⟩
  have hl : lidx_main_v35 (ix2 e (0 : Fin 1)) (0 : Fin 1) = ix2 e (0 : Fin 1) := funext fun a => by
    match a with
    | ⟨0, _⟩ => rfl
    | ⟨1, _⟩ => rfl
  have hr : ridx_main_v35 (ix2 e (0 : Fin 1)) (0 : Fin 1) = ix2 (0 : Fin 1) (0 : Fin 1) := funext fun a => by
    match a with
    | ⟨0, _⟩ => rfl
    | ⟨1, _⟩ => rfl
  have i36 : idx_main_v36 (idx_main_v37 (ix2 e (0 : Fin 1))) = ix1 (0 : Fin 1) := funext fun a => by
    match a with
    | ⟨0, _⟩ => rfl
  rw [val_main_v38_apply, val_main_v35_apply, Fin.sum_univ_one, val_main_v37_apply, val_main_v36_apply, hl, hr, i36, activated]
  rfl

end

end Cert.ReferenceIdeal.RefValue

end
-- ==== Proof.lean ====
/-
  The edge model computed two ways is one function of its inputs, on the extended reals.

  The reference gathers, for every edge, the 64-wide rows of its two end nodes and the 16-wide row of its graph, lays
  them beside the edge's 8 attributes, and takes one 152-term dot product with the weight column.  The kernel program
  projects every node row and every graph row onto its slice of the weight column FIRST (one scalar per row), gathers
  those scalars per edge, and adds the attributes' own 8-term product.  A 152-term sum is the sum of its four
  consecutive ranges in any order (addition of extended reals is commutative and associative; no entry needs to be
  finite), and a gathered row's product is the product's gathered entry, so the hidden values agree; the bias, the
  leaky rectifier, the 1×1 second layer and its bias are the same operations on both sides.

  The kernel program's run is read item by item (two host stretches, two grid launches): each launch's blocks tile its
  result arrays, so each result is one whole-array function of the launch's inputs, and no item writes an argument.
  The bit-level program has the same shape, so its frame is the same argument at the other instance.  The pass that
  printed the idealized program rewrote nothing, so there is nothing to preserve beyond that.
-/
import proofs.«135055_j31748398252727_2_alg».proof.Defs
import proofs.«135055_j31748398252727_2_alg».proof.Proof.Gen.Kernel
import proofs.«135055_j31748398252727_2_alg».proof.Proof.Gen.KernelIdeal
import proofs.«135055_j31748398252727_2_alg».proof.Proof.Gen.ReferenceIdeal
import proofs.«135055_j31748398252727_2_alg».proof.Proof.Gen.ReferenceIdeal.Run
import proofs.«135055_j31748398252727_2_alg».proof.Proof.Gen.ReferenceIdeal.Read
import proofs.«135055_j31748398252727_2_alg».proof.Proof.Gen.Pre_finite_inputs
import proofs.«135055_j31748398252727_2_alg».proof.Proof.K.Run
import proofs.«135055_j31748398252727_2_alg».proof.Proof.KI.Value
import proofs.«135055_j31748398252727_2_alg».proof.Proof.RefIsG

noncomputable section

namespace Cert.Proof

open Idealize.ShloMosaic Idealize.ShloMosaic.TcCoe Idealize.SL.Sem

/-- The bit-level program runs to the end and leaves its arguments as launched. -/
theorem frame_k : Cert.frame_Kernel := fun m ρ _ => Cert.Kernel.Hand.frame (F := Bits) m ρ
/-- So does the idealized program. -/
theorem frame_ki : Cert.frame_KernelIdeal := fun m ρ _ => Cert.KernelIdeal.Hand.frame (F := Ideal) m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten, so nothing is to be preserved. -/
theorem preserves : Cert.preserves_Kernel_KernelIdeal := trivial

/-- From memories agreeing on the arguments both programs end with the specification of the arguments in their result
    arrays, and with the arguments unchanged. -/
theorem algebraic : Cert.algebraic_KernelIdeal_ReferenceIdeal := by
  intro m ρ m' ρ' _ hagree
  refine ⟨fun c => Cert.EdgeMlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v34 (by decide))).trans (Cert.KernelIdeal.Hand.kernel_val m c),
      (h c _ (Cert.KernelIdeal.Hand.mem_uc Cert.KernelIdeal.main_arg0 (by decide))).trans (Cert.KernelIdeal.Gen.V4_main_arg0 m (Cert.KernelIdeal.Hand.outs m) c),
      (h c _ (Cert.KernelIdeal.Hand.mem_uc Cert.KernelIdeal.main_arg1 (by decide))).trans (Cert.KernelIdeal.Gen.V4_main_arg1 m (Cert.KernelIdeal.Hand.outs m) c),
      (h c _ (Cert.KernelIdeal.Hand.mem_uc Cert.KernelIdeal.main_arg2 (by decide))).trans (Cert.KernelIdeal.Gen.V4_main_arg2 m (Cert.KernelIdeal.Hand.outs m) c),
      (h c _ (Cert.KernelIdeal.Hand.mem_uc Cert.KernelIdeal.main_arg3 (by decide))).trans (Cert.KernelIdeal.Gen.V4_main_arg3 m (Cert.KernelIdeal.Hand.outs m) c),
      (h c _ (Cert.KernelIdeal.Hand.mem_uc Cert.KernelIdeal.main_arg4 (by decide))).trans (Cert.KernelIdeal.Gen.V4_main_arg4 m (Cert.KernelIdeal.Hand.outs m) c),
      (h c _ (Cert.KernelIdeal.Hand.mem_uc Cert.KernelIdeal.main_arg5 (by decide))).trans (Cert.KernelIdeal.Gen.V4_main_arg5 m (Cert.KernelIdeal.Hand.outs m) c),
      (h c _ (Cert.KernelIdeal.Hand.mem_uc Cert.KernelIdeal.main_arg6 (by decide))).trans (Cert.KernelIdeal.Gen.V4_main_arg6 m (Cert.KernelIdeal.Hand.outs m) c),
      (h c _ (Cert.KernelIdeal.Hand.mem_uc Cert.KernelIdeal.main_arg7 (by decide))).trans (Cert.KernelIdeal.Gen.V4_main_arg7 m (Cert.KernelIdeal.Hand.outs m) c),
      (h c _ (Cert.KernelIdeal.Hand.mem_uc Cert.KernelIdeal.main_arg8 (by decide))).trans (Cert.KernelIdeal.Gen.V4_main_arg8 m (Cert.KernelIdeal.Hand.outs m) c),
      (h c _ (Cert.KernelIdeal.Hand.mem_uc Cert.KernelIdeal.main_arg9 (by decide))).trans (Cert.KernelIdeal.Gen.V4_main_arg9 m (Cert.KernelIdeal.Hand.outs m) c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
